-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4x1024 : Shape := ⟨3, ![1024, 4, 1024]⟩
abbrev S1024x1024x64 : Shape := ⟨3, ![1024, 1024, 64]⟩
abbrev S_ : Shape := ⟨0, ![]⟩

class Facts : Prop where
  bcast_S_S1024x4x1024 : S_.BroadcastsInDim S1024x4x1024 (![] : Fin 0 → Fin S1024x4x1024.rank)
  reducesTo_S1024x4x1024_S_d0_1_2 : S1024x4x1024.ReducesTo [0, 1, 2] S_
  h_S_ : 0 < S_.numel
  bcast_S_S1024x1024x64 : S_.BroadcastsInDim S1024x1024x64 (![] : Fin 0 → Fin S1024x1024x64.rank)
  reducesTo_S1024x1024x64_S_d0_1_2 : S1024x1024x64.ReducesTo [0, 1, 2] S_

variable [Facts]

def fn_part1 {F : FTy → Type} [FloatOps F] (main_v13 : IVec S_ 1) (main_v16 : IVec S1024x1024x64 1) : IVec S_ 1 :=
  let main_c_5 : IVec S_ 1 := constantI S_ 1 1#1
  let main_v17 : IVec S_ 1 := (fun x v => Host.reduce IntOp.andi x v reducesTo_S1024x1024x64_S_d0_1_2 h_S_) main_v16 main_c_5
  let main_v18 : IVec S_ 1 := andi main_v13 main_v17
  main_v18

def fn {F : FTy → Type} [FloatOps F] (main_arg0 : FVec F S1024x4x1024 .f32) (main_arg1 : FVec F S1024x4x1024 .f32) (main_arg2 : FVec F S1024x4x1024 .f32) (main_arg3 : FVec F S1024x1024x64 .f32) : IVec S_ 1 :=
  let main_v0 : FVec F S1024x4x1024 .f32 := Host.absf main_arg0
  let main_cst : FVec F S_ .f32 := constant S_ .f32 0x7F800000#32
  let main_v1 : FVec F S1024x4x1024 .f32 := broadcastInDim S1024x4x1024 ![] bcast_S_S1024x4x1024 main_cst
  let main_v2 : IVec S1024x4x1024 1 := cmpf .olt main_v0 main_v1
  let main_c : IVec S_ 1 := constantI S_ 1 1#1
  let main_v3 : IVec S_ 1 := (fun x v => Host.reduce IntOp.andi x v reducesTo_S1024x4x1024_S_d0_1_2 h_S_) main_v2 main_c
  let main_v4 : FVec F S1024x4x1024 .f32 := Host.absf main_arg1
  let main_cst_0 : FVec F S_ .f32 := constant S_ .f32 0x7F800000#32
  let main_v5 : FVec F S1024x4x1024 .f32 := broadcastInDim S1024x4x1024 ![] bcast_S_S1024x4x1024 main_cst_0
  let main_v6 : IVec S1024x4x1024 1 := cmpf .olt main_v4 main_v5
  let main_c_1 : IVec S_ 1 := constantI S_ 1 1#1
  let main_v7 : IVec S_ 1 := (fun x v => Host.reduce IntOp.andi x v reducesTo_S1024x4x1024_S_d0_1_2 h_S_) main_v6 main_c_1
  let main_v8 : IVec S_ 1 := andi main_v3 main_v7
  let main_v9 : FVec F S1024x4x1024 .f32 := Host.absf main_arg2
  let main_cst_2 : FVec F S_ .f32 := constant S_ .f32 0x7F800000#32
  let main_v10 : FVec F S1024x4x1024 .f32 := broadcastInDim S1024x4x1024 ![] bcast_S_S1024x4x1024 main_cst_2
  let main_v11 : IVec S1024x4x1024 1 := cmpf .olt main_v9 main_v10
  let main_c_3 : IVec S_ 1 := constantI S_ 1 1#1
  let main_v12 : IVec S_ 1 := (fun x v => Host.reduce IntOp.andi x v reducesTo_S1024x4x1024_S_d0_1_2 h_S_) main_v11 main_c_3
  let main_v13 : IVec S_ 1 := andi main_v8 main_v12
  let main_v14 : FVec F S1024x1024x64 .f32 := Host.absf main_arg3
  let main_cst_4 : FVec F S_ .f32 := constant S_ .f32 0x7F800000#32
  let main_v15 : FVec F S1024x1024x64 .f32 := broadcastInDim S1024x1024x64 ![] bcast_S_S1024x1024x64 main_cst_4
  let main_v16 : IVec S1024x1024x64 1 := cmpf .olt main_v14 main_v15
  fn_part1 (F := F) main_v13 main_v16
-- ==== Kernel.lean ====
abbrev S1024x4x1024 : Shape := ⟨3, ![1024, 4, 1024]⟩
abbrev S1024x1024x64 : Shape := ⟨3, ![1024, 1024, 64]⟩
abbrev S1024x4x16x64 : Shape := ⟨4, ![1024, 4, 16, 64]⟩
abbrev S4x16x1024x64 : Shape := ⟨4, ![4, 16, 1024, 64]⟩
abbrev S64x1024x64 : Shape := ⟨3, ![64, 1024, 64]⟩
abbrev S_ : Shape := ⟨0, ![]⟩
abbrev S64x128x64 : Shape := ⟨3, ![64, 128, 64]⟩
abbrev S64x16x64 : Shape := ⟨3, ![64, 16, 64]⟩
abbrev S128x16x64 : Shape := ⟨3, ![128, 16, 64]⟩
abbrev S64x128x1 : Shape := ⟨3, ![64, 128, 1]⟩
abbrev S64x128x16 : Shape := ⟨3, ![64, 128, 16]⟩
abbrev S64x128 : Shape := ⟨2, ![64, 128]⟩
abbrev S1024x64x64 : Shape := ⟨3, ![1024, 64, 64]⟩

abbrev nBuf : Space → Nat
  | .hbm => 19
  | .vmem => 13
  | .smem => 0
  | _ => 0

abbrev bufTy : (tb : Table) → Fin (tcTables nBuf tb) → BufTy
  | .hbm, ⟨0, _⟩ => ⟨S1024x4x1024, .f32⟩
  | .hbm, ⟨1, _⟩ => ⟨S1024x4x1024, .f32⟩
  | .hbm, ⟨2, _⟩ => ⟨S1024x4x1024, .f32⟩
  | .hbm, ⟨3, _⟩ => ⟨S1024x1024x64, .f32⟩
  | .hbm, ⟨4, _⟩ => ⟨S1024x4x16x64, .f32⟩
  | .hbm, ⟨5, _⟩ => ⟨S4x16x1024x64, .f32⟩
  | .hbm, ⟨6, _⟩ => ⟨S64x1024x64, .f32⟩
  | .hbm, ⟨7, _⟩ => ⟨S_, .f32⟩
  | .hbm, ⟨8, _⟩ => ⟨S64x1024x64, .f32⟩
  | .hbm, ⟨9, _⟩ => ⟨S64x1024x64, .f32⟩
  | .hbm, ⟨10, _⟩ => ⟨S1024x4x16x64, .f32⟩
  | .hbm, ⟨11, _⟩ => ⟨S4x16x1024x64, .f32⟩
  | .hbm, ⟨12, _⟩ => ⟨S64x1024x64, .f32⟩
  | .hbm, ⟨13, _⟩ => ⟨S1024x4x16x64, .f32⟩
  | .hbm, ⟨14, _⟩ => ⟨S4x16x1024x64, .f32⟩
  | .hbm, ⟨15, _⟩ => ⟨S64x1024x64, .f32⟩
  | .hbm, ⟨16, _⟩ => ⟨S64x1024x64, .f32⟩
  | .hbm, ⟨17, _⟩ => ⟨S1024x64x64, .f32⟩
  | .hbm, ⟨18, _⟩ => ⟨S1024x4x1024, .f32⟩
  | .local _ .vmem, ⟨0, _⟩ => ⟨S64x128x64, .f32⟩
  | .local _ .vmem, ⟨1, _⟩ => ⟨S64x128x64, .f32⟩
  | .local _ .vmem, ⟨2, _⟩ => ⟨S64x16x64, .f32⟩
  | .local _ .vmem, ⟨3, _⟩ => ⟨S64x16x64, .f32⟩
  | .local _ .vmem, ⟨4, _⟩ => ⟨S64x16x64, .f32⟩
  | .local _ .vmem, ⟨5, _⟩ => ⟨S64x16x64, .f32⟩
  | .local _ .vmem, ⟨6, _⟩ => ⟨S128x16x64, .f32⟩
  | .local _ .vmem, ⟨7, _⟩ => ⟨S128x16x64, .f32⟩
  | .local _ .vmem, ⟨8, _⟩ => ⟨S64x128x64, .f32⟩
  | .local _ .vmem, ⟨9, _⟩ => ⟨S64x128x64, .f32⟩
  | .local _ .vmem, ⟨10, _⟩ => ⟨S64x128x1, .f32⟩
  | .local _ .vmem, ⟨11, _⟩ => ⟨S64x128x1, .f32⟩
  | .local _ .vmem, ⟨12, _⟩ => ⟨S64x128x64, .f32⟩
  | _, _ => ⟨S1024x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 64], ![false, false]⟩

def k0_cond2 (i : grid0.Coords) : BitVec 1 :=
  let arg1 : BitVec 32 := BitVec.ofNat 32 (i 1).val
  let c63_i32 : BitVec 32 := 63#32
  let v49 : BitVec 1 := Scalar.cmpi .eq arg1 c63_i32
  let v50 : BitVec 32 := Scalar.extui v49
  let c0_i32_35 : BitVec 32 := 0#32
  let v51 : BitVec 1 := Scalar.cmpi .ne v50 c0_i32_35
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1024x4x1024_S1024x4x16x64 : S1024x4x1024.ShapeCasts S1024x4x16x64
  transposes_S1024x4x16x64_S4x16x1024x64_1_2_0_3 : S1024x4x16x64.Transposes [1, 2, 0, 3] S4x16x1024x64
  shapeCasts_S4x16x1024x64_S64x1024x64 : S4x16x1024x64.ShapeCasts S64x1024x64
  bcast_S_S64x1024x64 : S_.BroadcastsInDim S64x1024x64 (![] : Fin 0 → Fin S64x1024x64.rank)
  inb_S64x128x1_S64x128x1_0_0_0 : ∀ a, (![0, 0, 0] : Fin 3 → Nat) a + S64x128x1.size a ≤ S64x128x1.size a
  h_S64x128x1 : 0 < S64x128x1.numel
  shapeCasts_S64x128x1_S64x128x1 : S64x128x1.ShapeCasts S64x128x1
  inb_S64x128x64_S64x128x64_0_0_0 : ∀ a, (![0, 0, 0] : Fin 3 → Nat) a + S64x128x64.size a ≤ S64x128x64.size a
  h_S64x128x64 : 0 < S64x128x64.numel
  shapeCasts_S64x128x64_S64x128x64 : S64x128x64.ShapeCasts S64x128x64
  bitsLt_bf16_f32 : FTy.bits .bf16 < FTy.bits .f32
  inb_S64x16x64_S64x16x64_0_0_0 : ∀ a, (![0, 0, 0] : Fin 3 → Nat) a + S64x16x64.size a ≤ S64x16x64.size a
  h_S64x16x64 : 0 < S64x16x64.numel
  shapeCasts_S64x16x64_S64x16x64 : S64x16x64.ShapeCasts S64x16x64
  inb_S128x16x64_S128x16x64_0_0_0 : ∀ a, (![0, 0, 0] : Fin 3 → Nat) a + S128x16x64.size a ≤ S128x16x64.size a
  h_S128x16x64 : 0 < S128x16x64.numel
  transposes_S128x16x64_p2_0_1_S64x128x16 : S128x16x64.Transposes [2, 0, 1] S64x128x16
  reduces_S64x128x16_S64x128 : S64x128x16.Reduces [2] S64x128
  shapeCasts_S64x128_S64x128x1 : S64x128.ShapeCasts S64x128x1
  broadcasts_S64x128x1_S64x128x16 : S64x128x1.Broadcasts S64x128x16
  broadcasts_S64x128x1_S64x128x64 : S64x128x1.Broadcasts S64x128x64
  transposes_S64x1024x64_S1024x64x64_1_0_2 : S64x1024x64.Transposes [1, 0, 2] S1024x64x64
  shapeCasts_S1024x64x64_S1024x4x1024 : S1024x64x64.ShapeCasts S1024x4x1024
  dot_S64x128x64_S64x16x64_S64x128x16_2_2_1_1_0_0_wf : DotDims.WF S64x128x64 S64x16x64 S64x128x16 [2] [2] [1] [1] [0] [0]
  dot_S64x128x16_S64x16x64_S64x128x64_2_1_1_2_0_0_wf : DotDims.WF S64x128x16 S64x16x64 S64x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x64.size a ≤ S64x1024x64.size a
  hwx0_0 : ∀ i : grid0.Coords, EltTy.bits .f32 = 32 ∨ (Rect.block (s := S64x1024x64) S64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16x64.size a ≤ S64x1024x64.size a
  hwx0_1 : ∀ i : grid0.Coords, EltTy.bits .f32 = 32 ∨ (Rect.block (s := S64x1024x64) S64x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16x64.size a ≤ S64x1024x64.size a
  hwx0_2 : ∀ i : grid0.Coords, EltTy.bits .f32 = 32 ∨ (Rect.block (s := S64x1024x64) S64x16x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16x64.size a ≤ S1024x1024x64.size a
  hwx0_3 : ∀ i : grid0.Coords, EltTy.bits .f32 = 32 ∨ (Rect.block (s := S1024x1024x64) S128x16x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128x64.size a ≤ S64x1024x64.size a
  hwx0_4 : ∀ i : grid0.Coords, EltTy.bits .f32 = 32 ∨ (Rect.block (s := S64x1024x64) S64x128x64.size (cc0_transform_4 i) (hinb0_4 i)).WholeWords (EltTy.packing .f32)

variable [Facts₀]

def dot_S64x128x64_S64x16x64_S64x128x16_2_2_1_1_0_0 : DotDims S64x128x64 S64x16x64 S64x128x16 where
  lhsContracting := [2]
  rhsContracting := [2]
  lhsNonContracting := [1]
  rhsNonContracting := [1]
  lhsBatch := [0]
  rhsBatch := [0]
  wf := dot_S64x128x64_S64x16x64_S64x128x16_2_2_1_1_0_0_wf
def dot_S64x128x16_S64x16x64_S64x128x64_2_1_1_2_0_0 : DotDims S64x128x16 S64x16x64 S64x128x64 where
  lhsContracting := [2]
  rhsContracting := [1]
  lhsNonContracting := [1]
  rhsNonContracting := [2]
  lhsBatch := [0]
  rhsBatch := [0]
  wf := dot_S64x128x16_S64x16x64_S64x128x64_2_1_1_2_0_0_wf

abbrev win0_0 : Pipeline.Window sig grid0 :=
  Pipeline.Window.ofSpec (Memref.whole main_v4) S64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x16x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x128x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x4x1024 : Shape := ⟨3, ![1024, 4, 1024]⟩
abbrev S1024x1024x64 : Shape := ⟨3, ![1024, 1024, 64]⟩
abbrev S1024x4x16x64 : Shape := ⟨4, ![1024, 4, 16, 64]⟩
abbrev S4x16x1024x64 : Shape := ⟨4, ![4, 16, 1024, 64]⟩
abbrev S64x1024x64 : Shape := ⟨3, ![64, 1024, 64]⟩
abbrev S_ : Shape := ⟨0, ![]⟩
abbrev S64x1024x1024 : Shape := ⟨3, ![64, 1024, 1024]⟩
abbrev S64x1024 : Shape := ⟨2, ![64, 1024]⟩
abbrev S64x1024x1 : Shape := ⟨3, ![64, 1024, 1]⟩
abbrev S1024x64x64 : Shape := ⟨3, ![1024, 64, 64]⟩

abbrev nBuf : Space → Nat
  | .hbm => 42
  | .vmem => 0
  | .smem => 0
  | _ => 0

abbrev bufTy : (tb : Table) → Fin (tcTables nBuf tb) → BufTy
  | .hbm, ⟨0, _⟩ => ⟨S1024x4x1024, .f32⟩
  | .hbm, ⟨1, _⟩ => ⟨S1024x4x1024, .f32⟩
  | .hbm, ⟨2, _⟩ => ⟨S1024x4x1024, .f32⟩
  | .hbm, ⟨3, _⟩ => ⟨S1024x1024x64, .f32⟩
  | .hbm, ⟨4, _⟩ => ⟨S1024x4x16x64, .f32⟩
  | .hbm, ⟨5, _⟩ => ⟨S4x16x1024x64, .f32⟩
  | .hbm, ⟨6, _⟩ => ⟨S64x1024x64, .f32⟩
  | .hbm, ⟨7, _⟩ => ⟨S_, .f32⟩
  | .hbm, ⟨8, _⟩ => ⟨S64x1024x64, .f32⟩
  | .hbm, ⟨9, _⟩ => ⟨S64x1024x64, .f32⟩
  | .hbm, ⟨10, _⟩ => ⟨S1024x4x16x64, .f32⟩
  | .hbm, ⟨11, _⟩ => ⟨S4x16x1024x64, .f32⟩
  | .hbm, ⟨12, _⟩ => ⟨S64x1024x64, .f32⟩
  | .hbm, ⟨13, _⟩ => ⟨S1024x4x16x64, .f32⟩
  | .hbm, ⟨14, _⟩ => ⟨S4x16x1024x64, .f32⟩
  | .hbm, ⟨15, _⟩ => ⟨S64x1024x64, .f32⟩
  | .hbm, ⟨16, _⟩ => ⟨S64x1024x1024, .f32⟩
  | .hbm, ⟨17, _⟩ => ⟨S64x1024x1024, .f32⟩
  | .hbm, ⟨18, _⟩ => ⟨S_, .f32⟩
  | .hbm, ⟨19, _⟩ => ⟨S64x1024x1024, .f32⟩
  | .hbm, ⟨20, _⟩ => ⟨S64x1024x1024, .f32⟩
  | .hbm, ⟨21, _⟩ => ⟨S_, .f32⟩
  | .hbm, ⟨22, _⟩ => ⟨S64x1024x1024, .f32⟩
  | .hbm, ⟨23, _⟩ => ⟨S64x1024x1024, .f32⟩
  | .hbm, ⟨24, _⟩ => ⟨S64x1024x1024, .f32⟩
  | .hbm, ⟨25, _⟩ => ⟨S_, .f32⟩
  | .hbm, ⟨26, _⟩ => ⟨S64x1024, .f32⟩
  | .hbm, ⟨27, _⟩ => ⟨S_, .f32⟩
  | .hbm, ⟨28, _⟩ => ⟨S64x1024, .f32⟩
  | .hbm, ⟨29, _⟩ => ⟨S64x1024, .f32⟩
  | .hbm, ⟨30, _⟩ => ⟨S64x1024x1, .f32⟩
  | .hbm, ⟨31, _⟩ => ⟨S64x1024x1024, .f32⟩
  | .hbm, ⟨32, _⟩ => ⟨S64x1024x1024, .f32⟩
  | .hbm, ⟨33, _⟩ => ⟨S64x1024x1024, .f32⟩
  | .hbm, ⟨34, _⟩ => ⟨S_, .f32⟩
  | .hbm, ⟨35, _⟩ => ⟨S64x1024, .f32⟩
  | .hbm, ⟨36, _⟩ => ⟨S64x1024x1, .f32⟩
  | .hbm, ⟨37, _⟩ => ⟨S64x1024x1024, .f32⟩
  | .hbm, ⟨38, _⟩ => ⟨S64x1024x1024, .f32⟩
  | .hbm, ⟨39, _⟩ => ⟨S64x1024x64, .f32⟩
  | .hbm, ⟨40, _⟩ => ⟨S1024x64x64, .f32⟩
  | .hbm, ⟨41, _⟩ => ⟨S1024x4x1024, .f32⟩
  | _, _ => ⟨S1024x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  shapeCasts_S1024x4x1024_S1024x4x16x64 : S1024x4x1024.ShapeCasts S1024x4x16x64
  transposes_S1024x4x16x64_S4x16x1024x64_1_2_0_3 : S1024x4x16x64.Transposes [1, 2, 0, 3] S4x16x1024x64
  shapeCasts_S4x16x1024x64_S64x1024x64 : S4x16x1024x64.ShapeCasts S64x1024x64
  bcast_S_S64x1024x64 : S_.BroadcastsInDim S64x1024x64 (![] : Fin 0 → Fin S64x1024x64.rank)
  transposes_S1024x1024x64_S64x1024x1024_2_0_1 : S1024x1024x64.Transposes [2, 0, 1] S64x1024x1024
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  transposes_S64x1024x64_S1024x64x64_1_0_2 : S64x1024x64.Transposes [1, 0, 2] S1024x64x64
  shapeCasts_S1024x64x64_S1024x4x1024 : S1024x64x64.ShapeCasts S1024x4x1024
  dot_S64x1024x64_S64x1024x64_S64x1024x1024_2_2_1_1_0_0_wf : DotDims.WF S64x1024x64 S64x1024x64 S64x1024x1024 [2] [2] [1] [1] [0] [0]
  dot_S64x1024x1024_S64x1024x64_S64x1024x64_2_1_1_2_0_0_wf : DotDims.WF S64x1024x1024 S64x1024x64 S64x1024x64 [2] [1] [1] [2] [0] [0]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf

class Facts : Prop extends Facts₀ where

variable [Facts]
-- ==== Proof.KernelPieces.lean ====
/-
  What each run of the kernel body leaves in the three carried buffers (the row statistic, the
  normaliser, the weighted sum of value rows) and, at the last key block, in the output block:
  each is one function of the blocks loaded at the point and of what the point before left.
  At the first key block the carried buffers are first reset (statistic to minus infinity, the two
  sums to zero) and the same update is then applied to the reset values.
-/
import proofs.«137137_j50251117363623_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl

/-- The new row statistic a key block leaves: the larger of the old one and the block's row maximum of the scores. -/
def mStep (x0 : Vec F S64x128x64 .f32) (x1 : Vec F S64x16x64 .f32) (x3 : Vec F S128x16x64 .f32) (mp : Vec F S64x128x1 .f32) : Vec F S64x128x1 .f32 :=
  k0_pay3 (k0_pay10 x0 x1 x3 mp)
/-- The new normaliser: the old one rescaled, plus the block's row sum of the shifted exponentials. -/
def lStep (x0 : Vec F S64x128x64 .f32) (x1 : Vec F S64x16x64 .f32) (x3 : Vec F S128x16x64 .f32) (mp lp : Vec F S64x128x1 .f32) : Vec F S64x128x1 .f32 :=
  k0_pay1 (k0_pay13 x0 x1 x3 mp lp) (k0_pay14 x0 x1 x3 mp)
/-- The new weighted sum of value rows: the old one rescaled, plus the block's exponentials times its value rows. -/
def aStep (x0 : Vec F S64x128x64 .f32) (x1 x2 : Vec F S64x16x64 .f32) (x3 : Vec F S128x16x64 .f32) (mp : Vec F S64x128x1 .f32) (ap : Vec F S64x128x64 .f32) : Vec F S64x128x64 .f32 :=
  k0_pay2 (k0_pay8 x2) (k0_pay11 x0 x1 x3 mp) (k0_pay12 x0 x1 x3 mp) ap

theorem sout0_A_0_eq (c : Dev nD) (i : grid0.Coords) (arg2 : Memref sig .tc .vmem S64x128x64 .f32) (harg2 : arg2.IsWhole) (arg3 : Memref sig .tc .vmem S64x16x64 .f32) (harg3 : arg3.IsWhole) (arg4 : Memref sig .tc .vmem S64x16x64 .f32) (harg4 : arg4.IsWhole) (arg5 : Memref sig .tc .vmem S128x16x64 .f32) (harg5 : arg5.IsWhole) (arg6 : Memref sig .tc .vmem S64x128x64 .f32) (harg6 : arg6.IsWhole) (arg7 : Memref sig .tc .vmem S64x128x1 .f32) (harg7 : arg7.IsWhole) (arg8 : Memref sig .tc .vmem S64x128x1 .f32) (harg8 : arg8.IsWhole) (arg9 : Memref sig .tc .vmem S64x128x64 .f32) (harg9 : arg9.IsWhole) (hc0 : cond0_0 i) (hc1 : ¬cond0_1 i)
    (x0 : Vec F S64x128x64 .f32) (x1 : Vec F S64x16x64 .f32) (x2 : Vec F S64x16x64 .f32) (x3 : Vec F S128x16x64 .f32) :
    sout0_A_0 c i arg2 harg2 arg3 harg3 arg4 harg4 arg5 harg5 arg6 harg6 arg7 harg7 arg8 harg8 arg9 harg9 hc0 hc1 x0 x1 x2 x3 = mStep x0 x1 x3 k0_pay5 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  first
    | rw [View.canon_cons_unit_zero (S := S64x128x1) hz3]
    | rw [View.canon_unit_zero hz3]
  simp only [View.readCov_unit_zero (S := S64x128x1) _ hz3, View.readCov_unit_zero (S := S64x128x64) _ hz3, View.readAt_eq_ld,
    harg2.read_unread, harg3.read_unread, harg4.read_unread, harg5.read_unread, harg7.read_unread, harg8.read_unread, harg9.read_unread,
    View.ld_unit_zero (S := S64x128x64) hz3, View.ld_unit_zero (S := S64x16x64) hz3, View.ld_unit_zero (S := S128x16x64) hz3,
    View.ld_unit_zero (S := S64x128x1) hz3]
  rfl

theorem sout0_A_1_eq (c : Dev nD) (i : grid0.Coords) (arg2 : Memref sig .tc .vmem S64x128x64 .f32) (harg2 : arg2.IsWhole) (arg3 : Memref sig .tc .vmem S64x16x64 .f32) (harg3 : arg3.IsWhole) (arg4 : Memref sig .tc .vmem S64x16x64 .f32) (harg4 : arg4.IsWhole) (arg5 : Memref sig .tc .vmem S128x16x64 .f32) (harg5 : arg5.IsWhole) (arg6 : Memref sig .tc .vmem S64x128x64 .f32) (harg6 : arg6.IsWhole) (arg7 : Memref sig .tc .vmem S64x128x1 .f32) (harg7 : arg7.IsWhole) (arg8 : Memref sig .tc .vmem S64x128x1 .f32) (harg8 : arg8.IsWhole) (arg9 : Memref sig .tc .vmem S64x128x64 .f32) (harg9 : arg9.IsWhole) (hc0 : cond0_0 i) (hc1 : ¬cond0_1 i)
    (x0 : Vec F S64x128x64 .f32) (x1 : Vec F S64x16x64 .f32) (x2 : Vec F S64x16x64 .f32) (x3 : Vec F S128x16x64 .f32) :
    sout0_A_1 c i arg2 harg2 arg3 harg3 arg4 harg4 arg5 harg5 arg6 harg6 arg7 harg7 arg8 harg8 arg9 harg9 hc0 hc1 x0 x1 x2 x3 = lStep x0 x1 x3 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  first
    | rw [View.canon_cons_unit_zero (S := S64x128x1) hz3]
    | rw [View.canon_unit_zero hz3]
  simp only [View.readCov_unit_zero (S := S64x128x1) _ hz3, View.readCov_unit_zero (S := S64x128x64) _ hz3, View.readAt_eq_ld,
    harg2.read_unread, harg3.read_unread, harg4.read_unread, harg5.read_unread, harg7.read_unread, harg8.read_unread, harg9.read_unread,
    View.ld_unit_zero (S := S64x128x64) hz3, View.ld_unit_zero (S := S64x16x64) hz3, View.ld_unit_zero (S := S128x16x64) hz3,
    View.ld_unit_zero (S := S64x128x1) hz3]
  rfl

theorem sout0_A_2_eq (c : Dev nD) (i : grid0.Coords) (arg2 : Memref sig .tc .vmem S64x128x64 .f32) (harg2 : arg2.IsWhole) (arg3 : Memref sig .tc .vmem S64x16x64 .f32) (harg3 : arg3.IsWhole) (arg4 : Memref sig .tc .vmem S64x16x64 .f32) (harg4 : arg4.IsWhole) (arg5 : Memref sig .tc .vmem S128x16x64 .f32) (harg5 : arg5.IsWhole) (arg6 : Memref sig .tc .vmem S64x128x64 .f32) (harg6 : arg6.IsWhole) (arg7 : Memref sig .tc .vmem S64x128x1 .f32) (harg7 : arg7.IsWhole) (arg8 : Memref sig .tc .vmem S64x128x1 .f32) (harg8 : arg8.IsWhole) (arg9 : Memref sig .tc .vmem S64x128x64 .f32) (harg9 : arg9.IsWhole) (hc0 : cond0_0 i) (hc1 : ¬cond0_1 i)
    (x0 : Vec F S64x128x64 .f32) (x1 : Vec F S64x16x64 .f32) (x2 : Vec F S64x16x64 .f32) (x3 : Vec F S128x16x64 .f32) :
    sout0_A_2 c i arg2 harg2 arg3 harg3 arg4 harg4 arg5 harg5 arg6 harg6 arg7 harg7 arg8 harg8 arg9 harg9 hc0 hc1 x0 x1 x2 x3 = aStep x0 x1 x2 x3 k0_pay5 k0_pay7 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  first
    | rw [View.canon_cons_unit_zero (S := S64x128x64) hz3]
    | rw [View.canon_unit_zero hz3]
  simp only [View.readCov_unit_zero (S := S64x128x1) _ hz3, View.readCov_unit_zero (S := S64x128x64) _ hz3, View.readAt_eq_ld,
    harg2.read_unread, harg3.read_unread, harg4.read_unread, harg5.read_unread, harg7.read_unread, harg8.read_unread, harg9.read_unread,
    View.ld_unit_zero (S := S64x128x64) hz3, View.ld_unit_zero (S := S64x16x64) hz3, View.ld_unit_zero (S := S128x16x64) hz3,
    View.ld_unit_zero (S := S64x128x1) hz3]
  rfl

theorem sout0_B_0_eq (c : Dev nD) (i : grid0.Coords) (arg2 : Memref sig .tc .vmem S64x128x64 .f32) (harg2 : arg2.IsWhole) (arg3 : Memref sig .tc .vmem S64x16x64 .f32) (harg3 : arg3.IsWhole) (arg4 : Memref sig .tc .vmem S64x16x64 .f32) (harg4 : arg4.IsWhole) (arg5 : Memref sig .tc .vmem S128x16x64 .f32) (harg5 : arg5.IsWhole) (arg6 : Memref sig .tc .vmem S64x128x64 .f32) (harg6 : arg6.IsWhole) (arg7 : Memref sig .tc .vmem S64x128x1 .f32) (harg7 : arg7.IsWhole) (arg8 : Memref sig .tc .vmem S64x128x1 .f32) (harg8 : arg8.IsWhole) (arg9 : Memref sig .tc .vmem S64x128x64 .f32) (harg9 : arg9.IsWhole) (hc0 : ¬cond0_0 i) (hc1 : ¬cond0_1 i)
    (x0 : Vec F S64x128x64 .f32) (x1 : Vec F S64x16x64 .f32) (x2 : Vec F S64x16x64 .f32) (x3 : Vec F S128x16x64 .f32) (xs0 : Vec F S64x128x1 .f32) (xs1 : Vec F S64x128x1 .f32) (xs2 : Vec F S64x128x64 .f32) :
    sout0_B_0 c i arg2 harg2 arg3 harg3 arg4 harg4 arg5 harg5 arg6 harg6 arg7 harg7 arg8 harg8 arg9 harg9 hc0 hc1 x0 x1 x2 x3 xs0 xs1 xs2 = mStep x0 x1 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  first
    | rw [View.canon_cons_unit_zero (S := S64x128x1) hz3]
    | rw [View.canon_unit_zero hz3]
  simp only [View.readCov_unit_zero (S := S64x128x1) _ hz3, View.readCov_unit_zero (S := S64x128x64) _ hz3, View.readAt_eq_ld,
    harg2.read_unread, harg3.read_unread, harg4.read_unread, harg5.read_unread, harg7.read_unread, harg8.read_unread, harg9.read_unread,
    View.ld_unit_zero (S := S64x128x64) hz3, View.ld_unit_zero (S := S64x16x64) hz3, View.ld_unit_zero (S := S128x16x64) hz3,
    View.ld_unit_zero (S := S64x128x1) hz3]
  rfl

theorem sout0_B_1_eq (c : Dev nD) (i : grid0.Coords) (arg2 : Memref sig .tc .vmem S64x128x64 .f32) (harg2 : arg2.IsWhole) (arg3 : Memref sig .tc .vmem S64x16x64 .f32) (harg3 : arg3.IsWhole) (arg4 : Memref sig .tc .vmem S64x16x64 .f32) (harg4 : arg4.IsWhole) (arg5 : Memref sig .tc .vmem S128x16x64 .f32) (harg5 : arg5.IsWhole) (arg6 : Memref sig .tc .vmem S64x128x64 .f32) (harg6 : arg6.IsWhole) (arg7 : Memref sig .tc .vmem S64x128x1 .f32) (harg7 : arg7.IsWhole) (arg8 : Memref sig .tc .vmem S64x128x1 .f32) (harg8 : arg8.IsWhole) (arg9 : Memref sig .tc .vmem S64x128x64 .f32) (harg9 : arg9.IsWhole) (hc0 : ¬cond0_0 i) (hc1 : ¬cond0_1 i)
    (x0 : Vec F S64x128x64 .f32) (x1 : Vec F S64x16x64 .f32) (x2 : Vec F S64x16x64 .f32) (x3 : Vec F S128x16x64 .f32) (xs0 : Vec F S64x128x1 .f32) (xs1 : Vec F S64x128x1 .f32) (xs2 : Vec F S64x128x64 .f32) :
    sout0_B_1 c i arg2 harg2 arg3 harg3 arg4 harg4 arg5 harg5 arg6 harg6 arg7 harg7 arg8 harg8 arg9 harg9 hc0 hc1 x0 x1 x2 x3 xs0 xs1 xs2 = lStep x0 x1 x3 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  first
    | rw [View.canon_cons_unit_zero (S := S64x128x1) hz3]
    | rw [View.canon_unit_zero hz3]
  simp only [View.readCov_unit_zero (S := S64x128x1) _ hz3, View.readCov_unit_zero (S := S64x128x64) _ hz3, View.readAt_eq_ld,
    harg2.read_unread, harg3.read_unread, harg4.read_unread, harg5.read_unread, harg7.read_unread, harg8.read_unread, harg9.read_unread,
    View.ld_unit_zero (S := S64x128x64) hz3, View.ld_unit_zero (S := S64x16x64) hz3, View.ld_unit_zero (S := S128x16x64) hz3,
    View.ld_unit_zero (S := S64x128x1) hz3]
  rfl

theorem sout0_B_2_eq (c : Dev nD) (i : grid0.Coords) (arg2 : Memref sig .tc .vmem S64x128x64 .f32) (harg2 : arg2.IsWhole) (arg3 : Memref sig .tc .vmem S64x16x64 .f32) (harg3 : arg3.IsWhole) (arg4 : Memref sig .tc .vmem S64x16x64 .f32) (harg4 : arg4.IsWhole) (arg5 : Memref sig .tc .vmem S128x16x64 .f32) (harg5 : arg5.IsWhole) (arg6 : Memref sig .tc .vmem S64x128x64 .f32) (harg6 : arg6.IsWhole) (arg7 : Memref sig .tc .vmem S64x128x1 .f32) (harg7 : arg7.IsWhole) (arg8 : Memref sig .tc .vmem S64x128x1 .f32) (harg8 : arg8.IsWhole) (arg9 : Memref sig .tc .vmem S64x128x64 .f32) (harg9 : arg9.IsWhole) (hc0 : ¬cond0_0 i) (hc1 : ¬cond0_1 i)
    (x0 : Vec F S64x128x64 .f32) (x1 : Vec F S64x16x64 .f32) (x2 : Vec F S64x16x64 .f32) (x3 : Vec F S128x16x64 .f32) (xs0 : Vec F S64x128x1 .f32) (xs1 : Vec F S64x128x1 .f32) (xs2 : Vec F S64x128x64 .f32) :
    sout0_B_2 c i arg2 harg2 arg3 harg3 arg4 harg4 arg5 harg5 arg6 harg6 arg7 harg7 arg8 harg8 arg9 harg9 hc0 hc1 x0 x1 x2 x3 xs0 xs1 xs2 = aStep x0 x1 x2 x3 xs0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  first
    | rw [View.canon_cons_unit_zero (S := S64x128x64) hz3]
    | rw [View.canon_unit_zero hz3]
  simp only [View.readCov_unit_zero (S := S64x128x1) _ hz3, View.readCov_unit_zero (S := S64x128x64) _ hz3, View.readAt_eq_ld,
    harg2.read_unread, harg3.read_unread, harg4.read_unread, harg5.read_unread, harg7.read_unread, harg8.read_unread, harg9.read_unread,
    View.ld_unit_zero (S := S64x128x64) hz3, View.ld_unit_zero (S := S64x16x64) hz3, View.ld_unit_zero (S := S128x16x64) hz3,
    View.ld_unit_zero (S := S64x128x1) hz3]
  rfl

theorem sout0_C_0_eq (c : Dev nD) (i : grid0.Coords) (arg2 : Memref sig .tc .vmem S64x128x64 .f32) (harg2 : arg2.IsWhole) (arg3 : Memref sig .tc .vmem S64x16x64 .f32) (harg3 : arg3.IsWhole) (arg4 : Memref sig .tc .vmem S64x16x64 .f32) (harg4 : arg4.IsWhole) (arg5 : Memref sig .tc .vmem S128x16x64 .f32) (harg5 : arg5.IsWhole) (arg6 : Memref sig .tc .vmem S64x128x64 .f32) (harg6 : arg6.IsWhole) (arg7 : Memref sig .tc .vmem S64x128x1 .f32) (harg7 : arg7.IsWhole) (arg8 : Memref sig .tc .vmem S64x128x1 .f32) (harg8 : arg8.IsWhole) (arg9 : Memref sig .tc .vmem S64x128x64 .f32) (harg9 : arg9.IsWhole) (hc0 : ¬cond0_0 i) (hc1 : cond0_1 i)
    (x0 : Vec F S64x128x64 .f32) (x1 : Vec F S64x16x64 .f32) (x2 : Vec F S64x16x64 .f32) (x3 : Vec F S128x16x64 .f32) (xs0 : Vec F S64x128x1 .f32) (xs1 : Vec F S64x128x1 .f32) (xs2 : Vec F S64x128x64 .f32) :
    sout0_C_0 c i arg2 harg2 arg3 harg3 arg4 harg4 arg5 harg5 arg6 harg6 arg7 harg7 arg8 harg8 arg9 harg9 hc0 hc1 x0 x1 x2 x3 xs0 xs1 xs2 = mStep x0 x1 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  first
    | rw [View.canon_cons_unit_zero (S := S64x128x1) hz3]
    | rw [View.canon_unit_zero hz3]
  simp only [View.readCov_unit_zero (S := S64x128x1) _ hz3, View.readCov_unit_zero (S := S64x128x64) _ hz3, View.readAt_eq_ld,
    harg2.read_unread, harg3.read_unread, harg4.read_unread, harg5.read_unread, harg7.read_unread, harg8.read_unread, harg9.read_unread,
    View.ld_unit_zero (S := S64x128x64) hz3, View.ld_unit_zero (S := S64x16x64) hz3, View.ld_unit_zero (S := S128x16x64) hz3,
    View.ld_unit_zero (S := S64x128x1) hz3]
  rfl

theorem sout0_C_1_eq (c : Dev nD) (i : grid0.Coords) (arg2 : Memref sig .tc .vmem S64x128x64 .f32) (harg2 : arg2.IsWhole) (arg3 : Memref sig .tc .vmem S64x16x64 .f32) (harg3 : arg3.IsWhole) (arg4 : Memref sig .tc .vmem S64x16x64 .f32) (harg4 : arg4.IsWhole) (arg5 : Memref sig .tc .vmem S128x16x64 .f32) (harg5 : arg5.IsWhole) (arg6 : Memref sig .tc .vmem S64x128x64 .f32) (harg6 : arg6.IsWhole) (arg7 : Memref sig .tc .vmem S64x128x1 .f32) (harg7 : arg7.IsWhole) (arg8 : Memref sig .tc .vmem S64x128x1 .f32) (harg8 : arg8.IsWhole) (arg9 : Memref sig .tc .vmem S64x128x64 .f32) (harg9 : arg9.IsWhole) (hc0 : ¬cond0_0 i) (hc1 : cond0_1 i)
    (x0 : Vec F S64x128x64 .f32) (x1 : Vec F S64x16x64 .f32) (x2 : Vec F S64x16x64 .f32) (x3 : Vec F S128x16x64 .f32) (xs0 : Vec F S64x128x1 .f32) (xs1 : Vec F S64x128x1 .f32) (xs2 : Vec F S64x128x64 .f32) :
    sout0_C_1 c i arg2 harg2 arg3 harg3 arg4 harg4 arg5 harg5 arg6 harg6 arg7 harg7 arg8 harg8 arg9 harg9 hc0 hc1 x0 x1 x2 x3 xs0 xs1 xs2 = lStep x0 x1 x3 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  first
    | rw [View.canon_cons_unit_zero (S := S64x128x1) hz3]
    | rw [View.canon_unit_zero hz3]
  simp only [View.readCov_unit_zero (S := S64x128x1) _ hz3, View.readCov_unit_zero (S := S64x128x64) _ hz3, View.readAt_eq_ld,
    harg2.read_unread, harg3.read_unread, harg4.read_unread, harg5.read_unread, harg7.read_unread, harg8.read_unread, harg9.read_unread,
    View.ld_unit_zero (S := S64x128x64) hz3, View.ld_unit_zero (S := S64x16x64) hz3, View.ld_unit_zero (S := S128x16x64) hz3,
    View.ld_unit_zero (S := S64x128x1) hz3]
  rfl

theorem sout0_C_2_eq (c : Dev nD) (i : grid0.Coords) (arg2 : Memref sig .tc .vmem S64x128x64 .f32) (harg2 : arg2.IsWhole) (arg3 : Memref sig .tc .vmem S64x16x64 .f32) (harg3 : arg3.IsWhole) (arg4 : Memref sig .tc .vmem S64x16x64 .f32) (harg4 : arg4.IsWhole) (arg5 : Memref sig .tc .vmem S128x16x64 .f32) (harg5 : arg5.IsWhole) (arg6 : Memref sig .tc .vmem S64x128x64 .f32) (harg6 : arg6.IsWhole) (arg7 : Memref sig .tc .vmem S64x128x1 .f32) (harg7 : arg7.IsWhole) (arg8 : Memref sig .tc .vmem S64x128x1 .f32) (harg8 : arg8.IsWhole) (arg9 : Memref sig .tc .vmem S64x128x64 .f32) (harg9 : arg9.IsWhole) (hc0 : ¬cond0_0 i) (hc1 : cond0_1 i)
    (x0 : Vec F S64x128x64 .f32) (x1 : Vec F S64x16x64 .f32) (x2 : Vec F S64x16x64 .f32) (x3 : Vec F S128x16x64 .f32) (xs0 : Vec F S64x128x1 .f32) (xs1 : Vec F S64x128x1 .f32) (xs2 : Vec F S64x128x64 .f32) :
    sout0_C_2 c i arg2 harg2 arg3 harg3 arg4 harg4 arg5 harg5 arg6 harg6 arg7 harg7 arg8 harg8 arg9 harg9 hc0 hc1 x0 x1 x2 x3 xs0 xs1 xs2 = aStep x0 x1 x2 x3 xs0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  first
    | rw [View.canon_cons_unit_zero (S := S64x128x64) hz3]
    | rw [View.canon_unit_zero hz3]
  simp only [View.readCov_unit_zero (S := S64x128x1) _ hz3, View.readCov_unit_zero (S := S64x128x64) _ hz3, View.readAt_eq_ld,
    harg2.read_unread, harg3.read_unread, harg4.read_unread, harg5.read_unread, harg7.read_unread, harg8.read_unread, harg9.read_unread,
    View.ld_unit_zero (S := S64x128x64) hz3, View.ld_unit_zero (S := S64x16x64) hz3, View.ld_unit_zero (S := S128x16x64) hz3,
    View.ld_unit_zero (S := S64x128x1) hz3]
  rfl

theorem out0_C_4_eq (c : Dev nD) (i : grid0.Coords) (arg2 : Memref sig .tc .vmem S64x128x64 .f32) (harg2 : arg2.IsWhole) (arg3 : Memref sig .tc .vmem S64x16x64 .f32) (harg3 : arg3.IsWhole) (arg4 : Memref sig .tc .vmem S64x16x64 .f32) (harg4 : arg4.IsWhole) (arg5 : Memref sig .tc .vmem S128x16x64 .f32) (harg5 : arg5.IsWhole) (arg6 : Memref sig .tc .vmem S64x128x64 .f32) (harg6 : arg6.IsWhole) (arg7 : Memref sig .tc .vmem S64x128x1 .f32) (harg7 : arg7.IsWhole) (arg8 : Memref sig .tc .vmem S64x128x1 .f32) (harg8 : arg8.IsWhole) (arg9 : Memref sig .tc .vmem S64x128x64 .f32) (harg9 : arg9.IsWhole) (hc0 : ¬cond0_0 i) (hc1 : cond0_1 i)
    (x0 : Vec F S64x128x64 .f32) (x1 : Vec F S64x16x64 .f32) (x2 : Vec F S64x16x64 .f32) (x3 : Vec F S128x16x64 .f32) (xs0 : Vec F S64x128x1 .f32) (xs1 : Vec F S64x128x1 .f32) (xs2 : Vec F S64x128x64 .f32) :
    out0_C_4 c i arg2 harg2 arg3 harg3 arg4 harg4 arg5 harg5 arg6 harg6 arg7 harg7 arg8 harg8 arg9 harg9 hc0 hc1 x0 x1 x2 x3 xs0 xs1 xs2 = k0_pay4 (aStep x0 x1 x2 x3 xs0 xs2) (lStep x0 x1 x3 xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  first
    | rw [View.canon_cons_unit_zero (S := S64x128x64) hz3]
    | rw [View.canon_unit_zero hz3]
  simp only [View.readCov_unit_zero (S := S64x128x1) _ hz3, View.readCov_unit_zero (S := S64x128x64) _ hz3, View.readAt_eq_ld,
    harg2.read_unread, harg3.read_unread, harg4.read_unread, harg5.read_unread, harg7.read_unread, harg8.read_unread, harg9.read_unread,
    View.ld_unit_zero (S := S64x128x64) hz3, View.ld_unit_zero (S := S64x16x64) hz3, View.ld_unit_zero (S := S128x16x64) hz3,
    View.ld_unit_zero (S := S64x128x1) hz3]
  rfl

end Cert.KernelIdeal.Pieces
end
-- ==== Proof.KernelBlocks.lean ====
/-
  The grid and the blocks. The 512 grid points run over 8 blocks of 128 query rows (outer) and,
  for each, 64 blocks of 16 key rows (inner): point t works on query block t / 64 and key block
  t % 64. At point t the query window holds rows 128 * (t / 64) + r of the scaled queries, the key
  and value windows rows 16 * (t % 64) + j of the keys and values, the mask window the entries
  (128 * (t / 64) + r, 16 * (t % 64) + j, b) of the mask, and the output window covers rows
  128 * (t / 64) + r of the result. What the three carried buffers hold after point t is the block
  update applied to what they held after point t - 1, restarted from the reset values whenever a
  new query block begins (t % 64 = 0); the output block is written at the last key block.
-/
import proofs.«137137_j50251117363623_2_alg».proof.Proof.KernelPieces
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Pieces Idealize.ShloMosaic.ValueIdx

variable {F : FTy → Type} [FloatOps F]
variable (m : (ℓ : Loc nD τ sig) → Buf (Elt F) ℓ)

/-- The block index of every window at every grid point. -/
theorem idx_facts : ∀ t : Fin cfg0.N,
    (win0_0.index t 0 = 0 ∧ win0_0.index t 1 = t.val / 64 ∧ win0_0.index t 2 = 0)
    ∧ (win0_1.index t 0 = 0 ∧ win0_1.index t 1 = t.val % 64 ∧ win0_1.index t 2 = 0)
    ∧ (win0_2.index t 0 = 0 ∧ win0_2.index t 1 = t.val % 64 ∧ win0_2.index t 2 = 0)
    ∧ (win0_3.index t 0 = t.val / 64 ∧ win0_3.index t 1 = t.val % 64 ∧ win0_3.index t 2 = 0)
    ∧ (win0_4.index t 0 = 0 ∧ win0_4.index t 1 = t.val / 64 ∧ win0_4.index t 2 = 0) :=
  (by decide +kernel : ∀ t : Fin grid0.N, _)

theorem N512 : cfg0.N = 512 := N_0

/-- The query row of the whole array that row `r` of the block at point `n` is. -/
def qrow (n : ℕ) (hn : n < cfg0.N) (r : Fin 128) : Fin 1024 :=
  ⟨128 * (n / 64) + r.val, by have := r.isLt; have h : n < 512 := lt_of_lt_of_eq hn N512; omega⟩
/-- The key row of the whole array that row `j` of the block at point `n` is. -/
def krow (n : ℕ) (j : Fin 16) : Fin 1024 :=
  ⟨16 * (n % 64) + j.val, by have := j.isLt; omega⟩

theorem blk_q (c : Dev nD) (t : Fin cfg0.N) (b : Fin 64) (r : Fin 128) (e : Fin 64) :
    (iblk m c 0 t : Vec F S64x128x64 .f32) (ix3 b r e) = V m c main_v4 (ix3 b (qrow t.val t.isLt r) e) := by
  obtain ⟨⟨i0, i1, i2⟩, _⟩ := idx_facts t
  unfold iblk
  rw [View.read_apply]
  show V m c main_v4 _ = V m c main_v4 _
  refine congrArg (V m c main_v4) (funext fun a => Fin.ext ?_)
  match a with
  | ⟨0, _⟩ => show win0_0.index t 0 * 64 + 1 * b.val = b.val; rw [i0]; omega
  | ⟨1, _⟩ => show win0_0.index t 1 * 128 + 1 * r.val = 128 * (t.val / 64) + r.val; rw [i1]; omega
  | ⟨2, _⟩ => show win0_0.index t 2 * 64 + 1 * e.val = e.val; rw [i2]; omega

theorem blk_k (c : Dev nD) (t : Fin cfg0.N) (b : Fin 64) (j : Fin 16) (e : Fin 64) :
    (iblk m c 1 t : Vec F S64x16x64 .f32) (ix3 b j e) = V m c main_v7 (ix3 b (krow t.val j) e) := by
  obtain ⟨_, ⟨i0, i1, i2⟩, _⟩ := idx_facts t
  unfold iblk
  rw [View.read_apply]
  show V m c main_v7 _ = V m c main_v7 _
  refine congrArg (V m c main_v7) (funext fun a => Fin.ext ?_)
  match a with
  | ⟨0, _⟩ => show win0_1.index t 0 * 64 + 1 * b.val = b.val; rw [i0]; omega
  | ⟨1, _⟩ => show win0_1.index t 1 * 16 + 1 * j.val = 16 * (t.val % 64) + j.val; rw [i1]; omega
  | ⟨2, _⟩ => show win0_1.index t 2 * 64 + 1 * e.val = e.val; rw [i2]; omega

theorem blk_v (c : Dev nD) (t : Fin cfg0.N) (b : Fin 64) (j : Fin 16) (e : Fin 64) :
    (iblk m c 2 t : Vec F S64x16x64 .f32) (ix3 b j e) = V m c main_v10 (ix3 b (krow t.val j) e) := by
  obtain ⟨_, _, ⟨i0, i1, i2⟩, _⟩ := idx_facts t
  unfold iblk
  rw [View.read_apply]
  show V m c main_v10 _ = V m c main_v10 _
  refine congrArg (V m c main_v10) (funext fun a => Fin.ext ?_)
  match a with
  | ⟨0, _⟩ => show win0_2.index t 0 * 64 + 1 * b.val = b.val; rw [i0]; omega
  | ⟨1, _⟩ => show win0_2.index t 1 * 16 + 1 * j.val = 16 * (t.val % 64) + j.val; rw [i1]; omega
  | ⟨2, _⟩ => show win0_2.index t 2 * 64 + 1 * e.val = e.val; rw [i2]; omega

theorem blk_mask (c : Dev nD) (t : Fin cfg0.N) (r : Fin 128) (j : Fin 16) (b : Fin 64) :
    (iblk m c 3 t : Vec F S128x16x64 .f32) (ix3 r j b) = V m c main_arg3 (ix3 (qrow t.val t.isLt r) (krow t.val j) b) := by
  obtain ⟨_, _, _, ⟨i0, i1, i2⟩, _⟩ := idx_facts t
  unfold iblk
  rw [View.read_apply]
  show V m c main_arg3 _ = V m c main_arg3 _
  refine congrArg (V m c main_arg3) (funext fun a => Fin.ext ?_)
  match a with
  | ⟨0, _⟩ => show win0_3.index t 0 * 128 + 1 * r.val = 128 * (t.val / 64) + r.val; rw [i0]; omega
  | ⟨1, _⟩ => show win0_3.index t 1 * 16 + 1 * j.val = 16 * (t.val % 64) + j.val; rw [i1]; omega
  | ⟨2, _⟩ => show win0_3.index t 2 * 64 + 1 * b.val = b.val; rw [i2]; omega

/-- The four input blocks at point `t`, each at its literal block shape. -/
def xq (c : Dev nD) (t : Fin cfg0.N) : Vec F S64x128x64 .f32 := iblk m c 0 t
def xk (c : Dev nD) (t : Fin cfg0.N) : Vec F S64x16x64 .f32 := iblk m c 1 t
def xv (c : Dev nD) (t : Fin cfg0.N) : Vec F S64x16x64 .f32 := iblk m c 2 t
def xm (c : Dev nD) (t : Fin cfg0.N) : Vec F S128x16x64 .f32 := iblk m c 3 t

theorem xq_apply (c : Dev nD) (t : Fin cfg0.N) (b : Fin 64) (r : Fin 128) (e : Fin 64) :
    xq m c t (ix3 b r e) = V m c main_v4 (ix3 b (qrow t.val t.isLt r) e) := blk_q m c t b r e
theorem xk_apply (c : Dev nD) (t : Fin cfg0.N) (b : Fin 64) (j : Fin 16) (e : Fin 64) :
    xk m c t (ix3 b j e) = V m c main_v7 (ix3 b (krow t.val j) e) := blk_k m c t b j e
theorem xv_apply (c : Dev nD) (t : Fin cfg0.N) (b : Fin 64) (j : Fin 16) (e : Fin 64) :
    xv m c t (ix3 b j e) = V m c main_v10 (ix3 b (krow t.val j) e) := blk_v m c t b j e
theorem xm_apply (c : Dev nD) (t : Fin cfg0.N) (r : Fin 128) (j : Fin 16) (b : Fin 64) :
    xm m c t (ix3 r j b) = V m c main_arg3 (ix3 (qrow t.val t.isLt r) (krow t.val j) b) := blk_mask m c t r j b

/-- What the three carried buffers hold after point `n`. -/
def mAt (c : Dev nD) (n : ℕ) (hn : n < cfg0.N) : Vec F S64x128x1 .f32 := (outsAt0 m c n hn).2.1
def lAt (c : Dev nD) (n : ℕ) (hn : n < cfg0.N) : Vec F S64x128x1 .f32 := (outsAt0 m c n hn).2.2.1
def aAt (c : Dev nD) (n : ℕ) (hn : n < cfg0.N) : Vec F S64x128x64 .f32 := (outsAt0 m c n hn).2.2.2
/-- What the output block's staging buffer holds after point `n`. -/
def oAt (c : Dev nD) (n : ℕ) (hn : n < cfg0.N) : Vec F S64x128x64 .f32 := (outsAt0 m c n hn).1

set_option maxHeartbeats 3200000 in
/-- After a point that begins a query block: the update applied to the reset values. -/
theorem outs_A (c : Dev nD) (t : Fin cfg0.N) (h0 : t.val % 64 = 0) (h1 : ¬t.val % 64 = 63) :
    mAt m c t.val t.isLt = mStep (xq m c t) (xk m c t) (xm m c t) k0_pay5
    ∧ lAt m c t.val t.isLt = lStep (xq m c t) (xk m c t) (xm m c t) k0_pay5 k0_pay6
    ∧ aAt m c t.val t.isLt = aStep (xq m c t) (xk m c t) (xv m c t) (xm m c t) k0_pay5 k0_pay7 := by
  unfold mAt lAt aAt xq xk xv xm
  rw [outsAt0_A m c t h0 h1]
  exact ⟨sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sout0_A_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

set_option maxHeartbeats 3200000 in
/-- After a point inside a query block: the update applied to what the point before left. -/
theorem outs_B (c : Dev nD) (t : Fin cfg0.N) (h0 : ¬t.val % 64 = 0) (h1 : ¬t.val % 64 = 63) :
    mAt m c t.val t.isLt = mStep (xq m c t) (xk m c t) (xm m c t) (mAt m c (t.val - 1) (Nat.lt_of_le_of_lt (Nat.sub_le _ _) t.isLt))
    ∧ lAt m c t.val t.isLt = lStep (xq m c t) (xk m c t) (xm m c t) (mAt m c (t.val - 1) (Nat.lt_of_le_of_lt (Nat.sub_le _ _) t.isLt)) (lAt m c (t.val - 1) (Nat.lt_of_le_of_lt (Nat.sub_le _ _) t.isLt))
    ∧ aAt m c t.val t.isLt = aStep (xq m c t) (xk m c t) (xv m c t) (xm m c t) (mAt m c (t.val - 1) (Nat.lt_of_le_of_lt (Nat.sub_le _ _) t.isLt)) (aAt m c (t.val - 1) (Nat.lt_of_le_of_lt (Nat.sub_le _ _) t.isLt)) := by
  unfold mAt lAt aAt xq xk xv xm
  rw [outsAt0_B m c t h0 h1]
  exact ⟨sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout0_B_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

set_option maxHeartbeats 3200000 in
/-- After the last point of a query block: the same update, and the output block is the quotient. -/
theorem outs_C (c : Dev nD) (t : Fin cfg0.N) (h0 : ¬t.val % 64 = 0) (h1 : t.val % 64 = 63) :
    mAt m c t.val t.isLt = mStep (xq m c t) (xk m c t) (xm m c t) (mAt m c (t.val - 1) (Nat.lt_of_le_of_lt (Nat.sub_le _ _) t.isLt))
    ∧ lAt m c t.val t.isLt = lStep (xq m c t) (xk m c t) (xm m c t) (mAt m c (t.val - 1) (Nat.lt_of_le_of_lt (Nat.sub_le _ _) t.isLt)) (lAt m c (t.val - 1) (Nat.lt_of_le_of_lt (Nat.sub_le _ _) t.isLt))
    ∧ aAt m c t.val t.isLt = aStep (xq m c t) (xk m c t) (xv m c t) (xm m c t) (mAt m c (t.val - 1) (Nat.lt_of_le_of_lt (Nat.sub_le _ _) t.isLt)) (aAt m c (t.val - 1) (Nat.lt_of_le_of_lt (Nat.sub_le _ _) t.isLt))
    ∧ oAt m c t.val t.isLt = k0_pay4 (aAt m c t.val t.isLt) (lAt m c t.val t.isLt) := by
  unfold mAt lAt aAt oAt xq xk xv xm
  rw [outsAt0_C m c t h0 h1]
  refine ⟨sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, ?_⟩
  refine (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  rw [sout0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

end Cert.KernelIdeal.Blocks

end
-- ==== Proof.KernelDots.lean ====
/-
  The kernel's two batched matrix products read at one entry, over the extended reals.
  Scores: for pair b, query row r and key row j of the block, the sum over the 64 features e of
  query(b,r,e) * key(b,j,e). Weighted values: for pair b, query row r and feature d, the sum over
  the block's 16 key rows j of weight(b,r,j) * value(b,j,d). Both accumulate into zero.
-/
import proofs.«137137_j50251117363623_2_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Dots

open Cert.KernelIdeal Cert.KernelIdeal.Gen Idealize.ShloMosaic Idealize.ShloMosaic.ValueIdx

theorem qk_l0 (i : S64x128x16.Idx) (q : dot_S64x128x64_S64x16x64_S64x128x16_2_2_1_1_0_0.contr.Idx) : (dot_S64x128x64_S64x16x64_S64x128x16_2_2_1_1_0_0.lhsIdx i q 0).val = (i 0).val := by
  unfold DotDims.lhsIdx
  rw [dif_pos (show (0 : Fin S64x128x64.rank) ∈ dot_S64x128x64_S64x16x64_S64x128x16_2_2_1_1_0_0.lhsBatch by decide)]
  rfl
theorem qk_l1 (i : S64x128x16.Idx) (q : dot_S64x128x64_S64x16x64_S64x128x16_2_2_1_1_0_0.contr.Idx) : (dot_S64x128x64_S64x16x64_S64x128x16_2_2_1_1_0_0.lhsIdx i q 1).val = (i 1).val := by
  unfold DotDims.lhsIdx
  rw [dif_neg (show ¬(1 : Fin S64x128x64.rank) ∈ dot_S64x128x64_S64x16x64_S64x128x16_2_2_1_1_0_0.lhsBatch by decide), dif_pos (show (1 : Fin S64x128x64.rank) ∈ dot_S64x128x64_S64x16x64_S64x128x16_2_2_1_1_0_0.lhsNonContracting by decide)]
  rfl
theorem qk_l2 (i : S64x128x16.Idx) (q : dot_S64x128x64_S64x16x64_S64x128x16_2_2_1_1_0_0.contr.Idx) : (dot_S64x128x64_S64x16x64_S64x128x16_2_2_1_1_0_0.lhsIdx i q 2).val = (q ⟨0, by decide⟩).val :=
  dot_S64x128x64_S64x16x64_S64x128x16_2_2_1_1_0_0.lhsIdx_val_of_single rfl i q
theorem qk_r0 (i : S64x128x16.Idx) (q : dot_S64x128x64_S64x16x64_S64x128x16_2_2_1_1_0_0.contr.Idx) : (dot_S64x128x64_S64x16x64_S64x128x16_2_2_1_1_0_0.rhsIdx i q 0).val = (i 0).val := by
  unfold DotDims.rhsIdx
  rw [dif_pos (show (0 : Fin S64x16x64.rank) ∈ dot_S64x128x64_S64x16x64_S64x128x16_2_2_1_1_0_0.rhsBatch by decide)]
  rfl
theorem qk_r1 (i : S64x128x16.Idx) (q : dot_S64x128x64_S64x16x64_S64x128x16_2_2_1_1_0_0.contr.Idx) : (dot_S64x128x64_S64x16x64_S64x128x16_2_2_1_1_0_0.rhsIdx i q 1).val = (i 2).val := by
  unfold DotDims.rhsIdx
  rw [dif_neg (show ¬(1 : Fin S64x16x64.rank) ∈ dot_S64x128x64_S64x16x64_S64x128x16_2_2_1_1_0_0.rhsBatch by decide), dif_pos (show (1 : Fin S64x16x64.rank) ∈ dot_S64x128x64_S64x16x64_S64x128x16_2_2_1_1_0_0.rhsNonContracting by decide)]
  rfl
theorem qk_r2 (i : S64x128x16.Idx) (q : dot_S64x128x64_S64x16x64_S64x128x16_2_2_1_1_0_0.contr.Idx) : (dot_S64x128x64_S64x16x64_S64x128x16_2_2_1_1_0_0.rhsIdx i q 2).val = (q ⟨0, by decide⟩).val :=
  dot_S64x128x64_S64x16x64_S64x128x16_2_2_1_1_0_0.rhsIdx_val_of_single rfl i q

/-- The score product at (pair b, query row r, key row j): the sum over the features. -/
theorem qk_apply (L : FVec Ideal S64x128x64 .bf16) (R : FVec Ideal S64x16x64 .bf16) (b : Fin 64) (r : Fin 128) (j : Fin 16) :
    matmul dot_S64x128x64_S64x16x64_S64x128x16_2_2_1_1_0_0 none L R (constant S64x128x16 .f32 0x00000000#32) (ix3 b r j)
      = ∑ e : Fin 64, L (ix3 b r e) * R (ix3 b j e) := by
  simp only [matmul]
  rw [Ideal.matmul_constant_zero_apply, ← Equiv.sum_comp (ValueIdx.contrEquiv1 dot_S64x128x64_S64x16x64_S64x128x16_2_2_1_1_0_0 64 rfl rfl).symm]
  refine Finset.sum_congr rfl fun k _ => ?_
  have hk := ValueIdx.contrEquiv1_symm_val dot_S64x128x64_S64x16x64_S64x128x16_2_2_1_1_0_0 64 rfl rfl k
  have el : dot_S64x128x64_S64x16x64_S64x128x16_2_2_1_1_0_0.lhsIdx (ix3 b r j) ((ValueIdx.contrEquiv1 dot_S64x128x64_S64x16x64_S64x128x16_2_2_1_1_0_0 64 rfl rfl).symm k) = ix3 b r k := funext fun a => Fin.ext (by
    match a with
    | ⟨0, _⟩ => exact qk_l0 _ _
    | ⟨1, _⟩ => exact qk_l1 _ _
    | ⟨2, _⟩ => exact (qk_l2 _ _).trans hk)
  have er : dot_S64x128x64_S64x16x64_S64x128x16_2_2_1_1_0_0.rhsIdx (ix3 b r j) ((ValueIdx.contrEquiv1 dot_S64x128x64_S64x16x64_S64x128x16_2_2_1_1_0_0 64 rfl rfl).symm k) = ix3 b j k := funext fun a => Fin.ext (by
    match a with
    | ⟨0, _⟩ => exact qk_r0 _ _
    | ⟨1, _⟩ => exact qk_r1 _ _
    | ⟨2, _⟩ => exact (qk_r2 _ _).trans hk)
  rw [el, er]

theorem pv_l0 (i : S64x128x64.Idx) (q : dot_S64x128x16_S64x16x64_S64x128x64_2_1_1_2_0_0.contr.Idx) : (dot_S64x128x16_S64x16x64_S64x128x64_2_1_1_2_0_0.lhsIdx i q 0).val = (i 0).val := by
  unfold DotDims.lhsIdx
  rw [dif_pos (show (0 : Fin S64x128x16.rank) ∈ dot_S64x128x16_S64x16x64_S64x128x64_2_1_1_2_0_0.lhsBatch by decide)]
  rfl
theorem pv_l1 (i : S64x128x64.Idx) (q : dot_S64x128x16_S64x16x64_S64x128x64_2_1_1_2_0_0.contr.Idx) : (dot_S64x128x16_S64x16x64_S64x128x64_2_1_1_2_0_0.lhsIdx i q 1).val = (i 1).val := by
  unfold DotDims.lhsIdx
  rw [dif_neg (show ¬(1 : Fin S64x128x16.rank) ∈ dot_S64x128x16_S64x16x64_S64x128x64_2_1_1_2_0_0.lhsBatch by decide), dif_pos (show (1 : Fin S64x128x16.rank) ∈ dot_S64x128x16_S64x16x64_S64x128x64_2_1_1_2_0_0.lhsNonContracting by decide)]
  rfl
theorem pv_l2 (i : S64x128x64.Idx) (q : dot_S64x128x16_S64x16x64_S64x128x64_2_1_1_2_0_0.contr.Idx) : (dot_S64x128x16_S64x16x64_S64x128x64_2_1_1_2_0_0.lhsIdx i q 2).val = (q ⟨0, by decide⟩).val :=
  dot_S64x128x16_S64x16x64_S64x128x64_2_1_1_2_0_0.lhsIdx_val_of_single rfl i q
theorem pv_r0 (i : S64x128x64.Idx) (q : dot_S64x128x16_S64x16x64_S64x128x64_2_1_1_2_0_0.contr.Idx) : (dot_S64x128x16_S64x16x64_S64x128x64_2_1_1_2_0_0.rhsIdx i q 0).val = (i 0).val := by
  unfold DotDims.rhsIdx
  rw [dif_pos (show (0 : Fin S64x16x64.rank) ∈ dot_S64x128x16_S64x16x64_S64x128x64_2_1_1_2_0_0.rhsBatch by decide)]
  rfl
theorem pv_r1 (i : S64x128x64.Idx) (q : dot_S64x128x16_S64x16x64_S64x128x64_2_1_1_2_0_0.contr.Idx) : (dot_S64x128x16_S64x16x64_S64x128x64_2_1_1_2_0_0.rhsIdx i q 1).val = (q ⟨0, by decide⟩).val :=
  dot_S64x128x16_S64x16x64_S64x128x64_2_1_1_2_0_0.rhsIdx_val_of_single rfl i q
theorem pv_r2 (i : S64x128x64.Idx) (q : dot_S64x128x16_S64x16x64_S64x128x64_2_1_1_2_0_0.contr.Idx) : (dot_S64x128x16_S64x16x64_S64x128x64_2_1_1_2_0_0.rhsIdx i q 2).val = (i 2).val := by
  unfold DotDims.rhsIdx
  rw [dif_neg (show ¬(2 : Fin S64x16x64.rank) ∈ dot_S64x128x16_S64x16x64_S64x128x64_2_1_1_2_0_0.rhsBatch by decide), dif_pos (show (2 : Fin S64x16x64.rank) ∈ dot_S64x128x16_S64x16x64_S64x128x64_2_1_1_2_0_0.rhsNonContracting by decide)]
  rfl

/-- The weighted-value product at (pair b, query row r, feature d): the sum over the block's key rows. -/
theorem pv_apply (L : FVec Ideal S64x128x16 .bf16) (R : FVec Ideal S64x16x64 .bf16) (b : Fin 64) (r : Fin 128) (d : Fin 64) :
    matmul dot_S64x128x16_S64x16x64_S64x128x64_2_1_1_2_0_0 none L R (constant S64x128x64 .f32 0x00000000#32) (ix3 b r d)
      = ∑ j : Fin 16, L (ix3 b r j) * R (ix3 b j d) := by
  simp only [matmul]
  rw [Ideal.matmul_constant_zero_apply, ← Equiv.sum_comp (ValueIdx.contrEquiv1 dot_S64x128x16_S64x16x64_S64x128x64_2_1_1_2_0_0 16 rfl rfl).symm]
  refine Finset.sum_congr rfl fun k _ => ?_
  have hk := ValueIdx.contrEquiv1_symm_val dot_S64x128x16_S64x16x64_S64x128x64_2_1_1_2_0_0 16 rfl rfl k
  have el : dot_S64x128x16_S64x16x64_S64x128x64_2_1_1_2_0_0.lhsIdx (ix3 b r d) ((ValueIdx.contrEquiv1 dot_S64x128x16_S64x16x64_S64x128x64_2_1_1_2_0_0 16 rfl rfl).symm k) = ix3 b r k := funext fun a => Fin.ext (by
    match a with
    | ⟨0, _⟩ => exact pv_l0 _ _
    | ⟨1, _⟩ => exact pv_l1 _ _
    | ⟨2, _⟩ => exact (pv_l2 _ _).trans hk)
  have er : dot_S64x128x16_S64x16x64_S64x128x64_2_1_1_2_0_0.rhsIdx (ix3 b r d) ((ValueIdx.contrEquiv1 dot_S64x128x16_S64x16x64_S64x128x64_2_1_1_2_0_0 16 rfl rfl).symm k) = ix3 b k d := funext fun a => Fin.ext (by
    match a with
    | ⟨0, _⟩ => exact pv_r0 _ _
    | ⟨1, _⟩ => exact (pv_r1 _ _).trans hk
    | ⟨2, _⟩ => exact pv_r2 _ _)
  rw [el, er]

end Cert.KernelIdeal.Dots

end
-- ==== Proof.KernelStep.lean ====
/-
  One key block's update read at an entry, over the extended reals.
  For pair b, query row r of the block and key row j of the block the score is
      sc(b,r,j) = sum over e of q(b,r,e) * k(b,j,e) + (mask(r,j,b) - w1) * w2 ;
  the block's row maximum mcur(b,r) is the maximum over j of sc(b,r,j), folded from minus infinity.
  With m' = max(m(b,r), mcur(b,r)) the three carried quantities become
      m'                                                   (the row statistic),
      exp(m - m') * l(b,r) + sum over j of exp(sc(b,r,j) - m')              (the normaliser),
      exp(m - m') * a(b,r,d) + sum over j of exp(sc(b,r,j) - m') * v(b,j,d) (the weighted values),
  and the output block at the last key block is a(b,r,d) / l(b,r).
-/
import proofs.«137137_j50251117363623_2_alg».proof.Proof.KernelPieces
import proofs.«137137_j50251117363623_2_alg».proof.Proof.KernelDots

noncomputable section

namespace Cert.KernelIdeal.Step

open Cert.KernelIdeal Cert.KernelIdeal.Gen Cert.KernelIdeal.Pieces Cert.KernelIdeal.Dots
open Idealize.ShloMosaic Idealize.ShloMosaic.ValueIdx

variable (x0 : Vec Ideal S64x128x64 .f32) (x1 x2 : Vec Ideal S64x16x64 .f32) (x3 : Vec Ideal S128x16x64 .f32)
variable (mp lp : Vec Ideal S64x128x1 .f32) (ap : Vec Ideal S64x128x64 .f32)

/-- The score of key row j of the block for query row r of the block, pair b. -/
def sc (b : Fin 64) (r : Fin 128) (j : Fin 16) : EReal :=
  (∑ e : Fin 64, x0 (ix3 b r e) * x1 (ix3 b j e))
    + (x3 (ix3 r j b) - Ideal.ofBits .f32 0x3F800000#32) * Ideal.ofBits .f32 0x461C4000#32

/-- The block's row maximum of the scores, folded from minus infinity. -/
def mcur (b : Fin 64) (r : Fin 128) : EReal :=
  (Finset.univ : Finset (Fin 16)).fold max (Ideal.ofBits .f32 0xFF800000#32) (fun j => sc x0 x1 x3 b r j)

/-- The updated row statistic. -/
def mnew (b : Fin 64) (r : Fin 128) : EReal := max (mp (ix3 b r 0)) (mcur x0 x1 x3 b r)

theorem pay9_apply (b : Fin 64) (r : Fin 128) (j : Fin 16) :
    k0_pay9 (F := Ideal) x0 x1 x3 (ix3 b r j) = sc x0 x1 x3 b r j := by
  unfold k0_pay9 sc
  dsimp only
  refine congrArg₂ (· + ·) ?_ ?_
  · refine (qk_apply _ _ b r j).trans ?_
    refine Finset.sum_congr rfl fun e _ => ?_
    refine congrArg₂ (· * ·) ?_ ?_
    · exact congrFun (shapeCast_self x0 _) _
    · exact congrFun (shapeCast_self x1 _) _
  · refine congrArg (fun t : EReal => (t - Ideal.ofBits .f32 0x3F800000#32) * Ideal.ofBits .f32 0x461C4000#32) ?_
    exact transpose_apply [2, 0, 1] x3 _ (ix3 b r j) (ix3 r j b) (fun bb => match bb with
      | ⟨0, _⟩ => rfl
      | ⟨1, _⟩ => rfl
      | ⟨2, _⟩ => rfl)

theorem lift_ix (h : S64x128x16.Reduces [2] S64x128) (b : Fin 64) (r : Fin 128) (j : Fin 16) :
    h.lift (ix2 b r) j = ix3 b r j :=
  funext fun a => Fin.ext (by match a with | ⟨0, _⟩ => rfl | ⟨1, _⟩ => rfl | ⟨2, _⟩ => rfl)

theorem col_cast_apply (v : S64x128.Idx → EReal) (h : S64x128.ShapeCasts S64x128x1) (b : Fin 64) (r : Fin 128) :
    shapeCast S64x128x1 v h (ix3 b r 0) = v (ix2 b r) :=
  shapeCast_apply v h (ix3 b r 0) (ix2 b r) (by
    rewrite [Shape.rowMajor_val_two, Shape.rowMajor_val_three]
    show b.val * 128 + r.val = (b.val * 128 + r.val) * 1 + 0
    omega)

theorem pay10_apply (b : Fin 64) (r : Fin 128) :
    k0_pay10 (F := Ideal) x0 x1 x3 mp (ix3 b r 0) = mnew x0 x1 x3 mp b r := by
  unfold k0_pay10 mnew mcur
  dsimp only
  refine congrArg (max (mp (ix3 b r 0))) ?_
  refine (col_cast_apply _ _ b r).trans ?_
  refine (Ideal.multiReduction_maximumf_single _ _ _ _ _ (ix2 b r)).trans ?_
  refine congrArg (Finset.fold max (Ideal.ofBits .f32 0xFF800000#32) · Finset.univ) ?_
  funext j
  exact (congrArg (k0_pay9 x0 x1 x3) (lift_ix _ b r j)).trans (pay9_apply x0 x1 x3 b r j)

theorem mStep_apply (b : Fin 64) (r : Fin 128) :
    mStep (F := Ideal) x0 x1 x3 mp (ix3 b r 0) = mnew x0 x1 x3 mp b r := by
  unfold mStep k0_pay3
  exact (congrFun (shapeCast_self _ _) _).trans (pay10_apply x0 x1 x3 mp b r)

theorem bc16 (v : S64x128x1.Idx → EReal) (h : S64x128x1.Broadcasts S64x128x16) (b : Fin 64) (r : Fin 128) (j : Fin 16) :
    broadcastTo S64x128x16 v h (ix3 b r j) = v (ix3 b r 0) :=
  broadcastTo_apply v h (ix3 b r j) (ix3 b r 0) (fun a => match a with
    | ⟨0, _⟩ => by show b.val = if (64 : Nat) = 1 then 0 else b.val; rw [if_neg (by decide)]
    | ⟨1, _⟩ => by show r.val = if (128 : Nat) = 1 then 0 else r.val; rw [if_neg (by decide)]
    | ⟨2, _⟩ => by show (0 : Nat) = if (1 : Nat) = 1 then 0 else j.val; rw [if_pos rfl])

theorem bc64 (v : S64x128x1.Idx → EReal) (h : S64x128x1.Broadcasts S64x128x64) (b : Fin 64) (r : Fin 128) (d : Fin 64) :
    broadcastTo S64x128x64 v h (ix3 b r d) = v (ix3 b r 0) :=
  broadcastTo_apply v h (ix3 b r d) (ix3 b r 0) (fun a => match a with
    | ⟨0, _⟩ => by show b.val = if (64 : Nat) = 1 then 0 else b.val; rw [if_neg (by decide)]
    | ⟨1, _⟩ => by show r.val = if (128 : Nat) = 1 then 0 else r.val; rw [if_neg (by decide)]
    | ⟨2, _⟩ => by show (0 : Nat) = if (1 : Nat) = 1 then 0 else d.val; rw [if_pos rfl])

theorem pay11_apply (b : Fin 64) (r : Fin 128) :
    k0_pay11 (F := Ideal) x0 x1 x3 mp (ix3 b r 0) = Ideal.exp (mp (ix3 b r 0) - mnew x0 x1 x3 mp b r) := by
  unfold k0_pay11
  show Ideal.exp (mp (ix3 b r 0) - k0_pay10 x0 x1 x3 mp (ix3 b r 0)) = _
  rw [pay10_apply]

theorem pay12_apply (b : Fin 64) (r : Fin 128) (j : Fin 16) :
    k0_pay12 (F := Ideal) x0 x1 x3 mp (ix3 b r j) = Ideal.exp (sc x0 x1 x3 b r j - mnew x0 x1 x3 mp b r) := by
  unfold k0_pay12
  show Ideal.exp (k0_pay9 x0 x1 x3 (ix3 b r j) - broadcastTo S64x128x16 (k0_pay10 x0 x1 x3 mp) _ (ix3 b r j)) = _
  rw [pay9_apply, bc16, pay10_apply]

theorem lStep_apply (b : Fin 64) (r : Fin 128) :
    lStep (F := Ideal) x0 x1 x3 mp lp (ix3 b r 0)
      = Ideal.exp (mp (ix3 b r 0) - mnew x0 x1 x3 mp b r) * lp (ix3 b r 0)
        + ∑ j : Fin 16, Ideal.exp (sc x0 x1 x3 b r j - mnew x0 x1 x3 mp b r) := by
  unfold lStep k0_pay1 k0_pay13 k0_pay14
  dsimp only
  refine (congrFun (shapeCast_self _ _) _).trans ?_
  refine congrArg₂ (· + ·) ?_ ?_
  · show k0_pay11 x0 x1 x3 mp (ix3 b r 0) * lp (ix3 b r 0) = _
    rw [pay11_apply]
  · refine (col_cast_apply _ _ b r).trans ?_
    refine (Ideal.multiReduction_add_single _ _ _ _ _ (ix2 b r)).trans ?_
    refine Finset.sum_congr rfl fun j _ => ?_
    exact (congrArg (k0_pay12 x0 x1 x3 mp) (lift_ix _ b r j)).trans (pay12_apply x0 x1 x3 mp b r j)

theorem aStep_apply (b : Fin 64) (r : Fin 128) (d : Fin 64) :
    aStep (F := Ideal) x0 x1 x2 x3 mp ap (ix3 b r d)
      = Ideal.exp (mp (ix3 b r 0) - mnew x0 x1 x3 mp b r) * ap (ix3 b r d)
        + ∑ j : Fin 16, Ideal.exp (sc x0 x1 x3 b r j - mnew x0 x1 x3 mp b r) * x2 (ix3 b j d) := by
  unfold aStep k0_pay2 k0_pay8
  dsimp only
  refine (congrFun (shapeCast_self _ _) _).trans ?_
  refine congrArg₂ (· + ·) ?_ ?_
  · show broadcastTo S64x128x64 (k0_pay11 x0 x1 x3 mp) _ (ix3 b r d) * ap (ix3 b r d) = _
    rw [bc64, pay11_apply]
  · refine (pv_apply _ _ b r d).trans ?_
    refine Finset.sum_congr rfl fun j _ => ?_
    refine congrArg₂ (· * ·) ?_ ?_
    · exact pay12_apply x0 x1 x3 mp b r j
    · exact congrFun (shapeCast_self x2 _) _

theorem out_apply (a : Vec Ideal S64x128x64 .f32) (l : Vec Ideal S64x128x1 .f32) (b : Fin 64) (r : Fin 128) (d : Fin 64) :
    k0_pay4 (F := Ideal) a l (ix3 b r d) = Ideal.div (a (ix3 b r d)) (l (ix3 b r 0)) := by
  unfold k0_pay4
  show Ideal.div (a (ix3 b r d)) (broadcastTo S64x128x64 l _ (ix3 b r d)) = _
  rw [bc64]

theorem pay5_apply (i : S64x128x1.Idx) : k0_pay5 (F := Ideal) i = Ideal.ofBits .f32 0xFF800000#32 := by
  unfold k0_pay5
  exact congrFun (shapeCast_self _ _) _

theorem pay6_apply (i : S64x128x1.Idx) : k0_pay6 (F := Ideal) i = Ideal.ofBits .f32 0x00000000#32 := by
  unfold k0_pay6
  exact congrFun (shapeCast_self _ _) _

theorem pay7_apply (i : S64x128x64.Idx) : k0_pay7 (F := Ideal) i = Ideal.ofBits .f32 0x00000000#32 := by
  unfold k0_pay7
  exact congrFun (shapeCast_self _ _) _

end Cert.KernelIdeal.Step

end
-- ==== Proof.Spec.lean ====
/-
  The function both programs compute, stated once over the reals.

  Attention for 64 (batch, head) pairs, 1024 query rows, 1024 key rows and head dimension 64.
  For scaled queries `Q`, keys `K`, values `V` (each indexed (pair, row, feature)) and a mask
  indexed (query row, key row, pair), the score of key `k` for query `q` in pair `b` is
      s(b,q,k) = sum over e of Q(b,q,e) * K(b,k,e)  +  (mask(q,k,b) - c1) * c2,
  and the result is the softmax-weighted mean of the value rows,
      out(b,q,d) = (sum over k of exp(s(b,q,k)) * V(b,k,d)) / (sum over k of exp(s(b,q,k))).
  A softmax is unchanged when one number is subtracted from every score of a row, so any way of
  computing it that subtracts a finite row statistic before exponentiating lands on this value.
-/
import Idealize.ShloMosaic.PureOps.Ideal
import Idealize.ShloMosaic.Lib.ValueIdx

noncomputable section

namespace Cert.Attention

open Idealize.ShloMosaic Idealize.ShloMosaic.ValueIdx

/-- The real number the first float word of the mask term denotes (the subtrahend). -/
def cOne : ℝ := (Ideal.ofBits .f32 0x3F800000#32).toReal
/-- The real number the second float word of the mask term denotes (the scale). -/
def cScale : ℝ := (Ideal.ofBits .f32 0x461C4000#32).toReal

/-- (pair, row, feature) arrays: scaled queries, keys, values, and the result. -/
abbrev SQ : Shape := ⟨3, ![64, 1024, 64]⟩
/-- The mask array: (query row, key row, pair). -/
abbrev SMask : Shape := ⟨3, ![1024, 1024, 64]⟩

/-- Every entry of an array of extended reals is a real number. -/
def RealValued {S : Shape} (x : S.Idx → EReal) : Prop := ∀ i, ∃ r : ℝ, x i = (r : EReal)

/-- An array of the (pair, row, feature) shape read as a real function of its three coordinates. -/
def re3 (x : SQ.Idx → EReal) (b : Fin 64) (r : Fin 1024) (e : Fin 64) : ℝ := (x (ix3 b r e)).toReal
/-- The mask read as a real function of (query row, key row, pair). -/
def reM (x : SMask.Idx → EReal) (q k : Fin 1024) (b : Fin 64) : ℝ := (x (ix3 q k b)).toReal

theorem re3_spec {x : SQ.Idx → EReal} (h : RealValued x) (b : Fin 64) (r : Fin 1024) (e : Fin 64) :
    x (ix3 b r e) = (re3 x b r e : EReal) := by
  obtain ⟨t, ht⟩ := h (ix3 b r e)
  unfold re3; rw [ht]; rfl

theorem reM_spec {x : SMask.Idx → EReal} (h : RealValued x) (q k : Fin 1024) (b : Fin 64) :
    x (ix3 q k b) = (reM x q k b : EReal) := by
  obtain ⟨t, ht⟩ := h (ix3 q k b)
  unfold reM; rw [ht]; rfl

/-- The score of key row `k` for query row `q` of pair `b`. -/
def score (qf kf : Fin 64 → Fin 1024 → Fin 64 → ℝ) (mf : Fin 1024 → Fin 1024 → Fin 64 → ℝ)
    (b : Fin 64) (q k : Fin 1024) : ℝ :=
  (∑ e : Fin 64, qf b q e * kf b k e) + (mf q k b - cOne) * cScale

/-- Softmax attention over the reals: the exp-weighted mean of the value rows. -/
def attn (qf kf vf : Fin 64 → Fin 1024 → Fin 64 → ℝ) (mf : Fin 1024 → Fin 1024 → Fin 64 → ℝ)
    (b : Fin 64) (q : Fin 1024) (d : Fin 64) : ℝ :=
  (∑ k : Fin 1024, Real.exp (score qf kf mf b q k) * vf b k d) / (∑ k : Fin 1024, Real.exp (score qf kf mf b q k))

/-- The result array as one function of the four arrays. -/
def G (Qa Ka Va : SQ.Idx → EReal) (Ma : SMask.Idx → EReal) : SQ.Idx → EReal :=
  fun i => ((attn (re3 Qa) (re3 Ka) (re3 Va) (reM Ma) (i 0) (i 1) (i 2) : ℝ) : EReal)

theorem G_apply (Qa Ka Va : SQ.Idx → EReal) (Ma : SMask.Idx → EReal) (b : Fin 64) (q : Fin 1024) (d : Fin 64) :
    G Qa Ka Va Ma (ix3 b q d) = ((attn (re3 Qa) (re3 Ka) (re3 Va) (reM Ma) b q d : ℝ) : EReal) := rfl

end Cert.Attention

end
-- ==== Proof.Consts.lean ====
/-
  The float words the two programs spell, as the extended reals they denote: minus and plus
  infinity, and the finite numbers 1, 10000 and 1/8. All of them are read here, once, so that no
  other module opens the definition of a float word.
-/
import proofs.«137137_j50251117363623_2_alg».proof.Proof.Spec

noncomputable section

namespace Cert.Attention.Consts

open Idealize.ShloMosaic Cert.Attention

theorem ofBits_neg_inf : Ideal.ofBits .f32 0xFF800000#32 = (⊥ : EReal) := by
  simp [Ideal.ofBits, Ideal.ieee]

theorem ofBits_pos_inf : Ideal.ofBits .f32 0x7F800000#32 = (⊤ : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_tenk : Ideal.ofBits .f32 0x461C4000#32 = ((10000 : ℝ) : EReal) := by
  simp [Ideal.ofBits, Ideal.ieee, -EReal.coe_mul]; norm_num

theorem ofBits_eighth : Ideal.ofBits .f32 0x3E000000#32 = (((1 : ℝ) / 8 : ℝ) : EReal) := by
  simp [Ideal.ofBits, Ideal.ieee, -EReal.coe_mul]; norm_num

/-- The subtrahend word of the mask term is the real `cOne`. -/
theorem ofBits_one_eq : Ideal.ofBits .f32 0x3F800000#32 = ((cOne : ℝ) : EReal) := by
  unfold cOne; rw [ofBits_one]; rfl

/-- The scale word of the mask term is the real `cScale`. -/
theorem ofBits_scale_eq : Ideal.ofBits .f32 0x461C4000#32 = ((cScale : ℝ) : EReal) := by
  unfold cScale; rw [ofBits_tenk]; rfl

end Cert.Attention.Consts

end
-- ==== Proof.LibSoftmaxShift.lean ====
/-
  Scalar laws of a softmax computed with a shifted exponent, on the extended reals.

  Softmax weights are unchanged when one real number is subtracted from every score: the factor
  exp(-M) cancels between numerator and denominator. The lemmas here are what that fact needs when
  the running statistic is kept as an extended real (bottom before the first score is seen) and
  the sums are accumulated a block of scores at a time:
    * exponentials of differences of reals, and of bottom minus a real;
    * a finite maximum of reals taken from bottom is a real;
    * one block's update of a running weighted sum, from the empty state and from a real state;
    * rescaling a weighted sum from one shift to another;
    * the quotient of two sums shifted by the same number, and the sum of normalised weights,
      both equal to the unshifted exp-weighted mean.
  Everything is stated for an arbitrary finite index type or `Fin n`, with no array shapes.
-/
import Idealize.ShloMosaic.PureOps.Ideal

noncomputable section

namespace SoftmaxShift

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The exponential of a difference of two reals. -/
theorem exp_sub_coe (x y : ℝ) : Ideal.exp ((x : EReal) - (y : EReal)) = ((Real.exp (x - y) : ℝ) : EReal) := by
  rw [← EReal.coe_sub, Ideal.exp_coe]

/-- Bottom minus a real is bottom, whose exponential is zero. -/
theorem exp_bot_sub_coe (y : ℝ) : Ideal.exp ((⊥ : EReal) - (y : EReal)) = 0 := by
  rw [EReal.bot_sub, Ideal.exp_bot]

/-- A maximum of the coercions of reals over a nonempty finite set, folded from bottom, is a real:
    over a one-element set it is that element, and adding an element takes the maximum of two reals. -/
theorem fold_max_coe_of_nonempty {ι : Type*} (s : Finset ι) (σ : ι → ℝ) :
    s.Nonempty → ∃ c : ℝ, s.fold max (⊥ : EReal) (fun j => (σ j : EReal)) = (c : EReal) := by
  classical
  refine Finset.induction_on s ?_ ?_
  · intro h
    exact absurd h Finset.not_nonempty_empty
  · intro a s ha ih _
    rw [Finset.fold_insert ha]
    rcases s.eq_empty_or_nonempty with hs | hs
    · subst hs
      exact ⟨σ a, by rw [Finset.fold_empty]; exact max_eq_left bot_le⟩
    · obtain ⟨c, hc⟩ := ih hs
      exact ⟨max (σ a) c, by rw [hc]; exact (EReal.coe_strictMono.monotone.map_max).symm⟩

/-- A maximum of finitely many (at least one) reals, folded from bottom, is a real. -/
theorem fold_max_coe_real {n : ℕ} (hn : 0 < n) (σ : Fin n → ℝ) :
    ∃ c : ℝ, (Finset.univ : Finset (Fin n)).fold max (⊥ : EReal) (fun j => (σ j : EReal)) = (c : EReal) := by
  exact fold_max_coe_of_nonempty Finset.univ σ ⟨⟨0, hn⟩, Finset.mem_univ _⟩

theorem max_bot_coe (c : ℝ) : max (⊥ : EReal) (c : EReal) = (c : EReal) := by
  exact max_eq_right bot_le

theorem max_coe_coe (a c : ℝ) : max (a : EReal) (c : EReal) = ((max a c : ℝ) : EReal) := by
  exact (EReal.coe_strictMono.monotone.map_max).symm

/-- One block's update of a running weighted sum from the EMPTY state (statistic bottom, sum zero). -/
theorem tile_first {n : ℕ} (σ w : Fin n → ℝ) (M' : ℝ) :
    Ideal.exp ((⊥ : EReal) - (M' : EReal)) * 0 + ∑ j : Fin n, Ideal.exp ((σ j : EReal) - (M' : EReal)) * (w j : EReal)
      = ((∑ j : Fin n, Real.exp (σ j - M') * w j : ℝ) : EReal) := by
  rw [mul_zero, zero_add, coe_sum]
  refine Finset.sum_congr rfl (fun j _ => ?_)
  rw [exp_sub_coe, EReal.coe_mul]

/-- The same with unit weights (the running normaliser). -/
theorem tile_first_unit {n : ℕ} (σ : Fin n → ℝ) (M' : ℝ) :
    Ideal.exp ((⊥ : EReal) - (M' : EReal)) * 0 + ∑ j : Fin n, Ideal.exp ((σ j : EReal) - (M' : EReal))
      = ((∑ j : Fin n, Real.exp (σ j - M') : ℝ) : EReal) := by
  rw [mul_zero, zero_add, coe_sum]
  exact Finset.sum_congr rfl (fun j _ => exp_sub_coe _ _)

/-- One block's update of a running weighted sum from a REAL state: the old sum is rescaled by
    exp(M - M') and the block's terms are added. -/
theorem tile_next {n : ℕ} (σ w : Fin n → ℝ) (M M' A : ℝ) :
    Ideal.exp ((M : EReal) - (M' : EReal)) * (A : EReal) + ∑ j : Fin n, Ideal.exp ((σ j : EReal) - (M' : EReal)) * (w j : EReal)
      = ((Real.exp (M - M') * A + ∑ j : Fin n, Real.exp (σ j - M') * w j : ℝ) : EReal) := by
  have hsum : ∑ j : Fin n, Ideal.exp ((σ j : EReal) - (M' : EReal)) * (w j : EReal)
      = ∑ j : Fin n, ((Real.exp (σ j - M') * w j : ℝ) : EReal) :=
    Finset.sum_congr rfl (fun j _ => by rw [exp_sub_coe, EReal.coe_mul])
  rw [hsum, exp_sub_coe M M', EReal.coe_add, EReal.coe_mul, coe_sum]

/-- The same with unit weights. -/
theorem tile_next_unit {n : ℕ} (σ : Fin n → ℝ) (M M' A : ℝ) :
    Ideal.exp ((M : EReal) - (M' : EReal)) * (A : EReal) + ∑ j : Fin n, Ideal.exp ((σ j : EReal) - (M' : EReal))
      = ((Real.exp (M - M') * A + ∑ j : Fin n, Real.exp (σ j - M') : ℝ) : EReal) := by
  have hsum : ∑ j : Fin n, Ideal.exp ((σ j : EReal) - (M' : EReal))
      = ∑ j : Fin n, ((Real.exp (σ j - M') : ℝ) : EReal) :=
    Finset.sum_congr rfl (fun j _ => exp_sub_coe _ _)
  rw [hsum, exp_sub_coe M M', EReal.coe_add, EReal.coe_mul, coe_sum]

/-- Rescaling a weighted sum from the shift `M` to the shift `M'`. -/
theorem rescale {ι : Type*} (s : Finset ι) (σ w : ι → ℝ) (M M' : ℝ) :
    Real.exp (M - M') * ∑ k ∈ s, Real.exp (σ k - M) * w k = ∑ k ∈ s, Real.exp (σ k - M') * w k := by
  rw [Finset.mul_sum]
  refine Finset.sum_congr rfl (fun k _ => ?_)
  rw [← mul_assoc, ← Real.exp_add]
  congr 2
  ring

/-- The same with unit weights. -/
theorem rescale_unit {ι : Type*} (s : Finset ι) (σ : ι → ℝ) (M M' : ℝ) :
    Real.exp (M - M') * ∑ k ∈ s, Real.exp (σ k - M) = ∑ k ∈ s, Real.exp (σ k - M') := by
  rw [Finset.mul_sum]
  refine Finset.sum_congr rfl (fun k _ => ?_)
  rw [← Real.exp_add]
  congr 1
  ring

/-- The quotient of the shifted weighted sum by the shifted normaliser is the unshifted exp-weighted mean. -/
theorem ratio_shift {ι : Type*} (s : Finset ι) (hs : s.Nonempty) (σ w : ι → ℝ) (M : ℝ) :
    Ideal.div ((∑ k ∈ s, Real.exp (σ k - M) * w k : ℝ) : EReal) ((∑ k ∈ s, Real.exp (σ k - M) : ℝ) : EReal)
      = (((∑ k ∈ s, Real.exp (σ k) * w k) / (∑ k ∈ s, Real.exp (σ k)) : ℝ) : EReal) := by
  have hD0 : 0 < ∑ k ∈ s, Real.exp (σ k) := Finset.sum_pos (fun k _ => Real.exp_pos _) hs
  have hN : ∑ k ∈ s, Real.exp (σ k - M) * w k = Real.exp (-M) * ∑ k ∈ s, Real.exp (σ k) * w k := by
    rw [Finset.mul_sum]
    refine Finset.sum_congr rfl (fun k _ => ?_)
    rw [sub_eq_add_neg, Real.exp_add]
    ring
  have hD : ∑ k ∈ s, Real.exp (σ k - M) = Real.exp (-M) * ∑ k ∈ s, Real.exp (σ k) := by
    rw [Finset.mul_sum]
    refine Finset.sum_congr rfl (fun k _ => ?_)
    rw [sub_eq_add_neg, Real.exp_add]
    ring
  have hE : Real.exp (-M) ≠ 0 := (Real.exp_pos _).ne'
  rw [hN, hD, Ideal.div_coe (mul_ne_zero hE hD0.ne'), ← EReal.coe_mul]
  congr 1
  field_simp

/-- The sum of normalised shifted weights times values is the same mean (the normaliser written as zero plus a sum). -/
theorem normalized_sum {n : ℕ} (hn : 0 < n) (σ w : Fin n → ℝ) (M : ℝ) :
    ∑ k : Fin n, Ideal.div (Ideal.exp ((σ k : EReal) - (M : EReal)))
        ((0 : EReal) + ∑ j : Fin n, Ideal.exp ((σ j : EReal) - (M : EReal))) * (w k : EReal)
      = (((∑ k : Fin n, Real.exp (σ k) * w k) / (∑ k : Fin n, Real.exp (σ k)) : ℝ) : EReal) := by
  have hne : (Finset.univ : Finset (Fin n)).Nonempty := ⟨⟨0, hn⟩, Finset.mem_univ _⟩
  have hden : (0 : EReal) + ∑ j : Fin n, Ideal.exp ((σ j : EReal) - (M : EReal))
      = ((∑ j : Fin n, Real.exp (σ j - M) : ℝ) : EReal) := by
    rw [zero_add, coe_sum]
    exact Finset.sum_congr rfl (fun j _ => exp_sub_coe _ _)
  have hDM : 0 < ∑ j : Fin n, Real.exp (σ j - M) := Finset.sum_pos (fun _ _ => Real.exp_pos _) hne
  have hterm : ∀ k : Fin n,
      Ideal.div (Ideal.exp ((σ k : EReal) - (M : EReal))) ((∑ j : Fin n, Real.exp (σ j - M) : ℝ) : EReal) * (w k : EReal)
        = ((Real.exp (σ k - M) * (1 / ∑ j : Fin n, Real.exp (σ j - M)) * w k : ℝ) : EReal) := by
    intro k
    rw [Ideal.div_coe hDM.ne', exp_sub_coe, ← EReal.coe_mul, ← EReal.coe_mul]
  have hratio := ratio_shift Finset.univ hne σ w M
  rw [Ideal.div_coe hDM.ne', ← EReal.coe_mul] at hratio
  rw [hden, Finset.sum_congr rfl (fun k _ => hterm k), ← coe_sum, ← hratio]
  congr 1
  rw [Finset.sum_mul]
  refine Finset.sum_congr rfl (fun k _ => ?_)
  ring

end SoftmaxShift

end
-- ==== Proof.LibOnlineRow.lean ====
/-
  The running softmax sums of one query row, a block of keys at a time.

  For scores s(0), s(1), ... and, for each feature d, value entries w(d,0), w(d,1), ..., the state
  after n keys is a triple (m, l, a): a real statistic m = M, the normaliser
      l = sum over k < n of exp(s(k) - M),
  and for each d the weighted sum a(d) = sum over k < n of exp(s(k) - M) * w(d,k).
  A block of T further keys replaces M by M' = max(M, the block's maximum), multiplies both sums
  by exp(M - M') and adds the block's terms; from the empty state (statistic minus infinity, sums
  zero) the same formulas produce the state after the first T keys. Whatever real M the state
  carries, a(d) / l is the exp-weighted mean of w(d, .) over the first n keys.
-/
import proofs.«137137_j50251117363623_2_alg».proof.Proof.LibSoftmaxShift

noncomputable section

namespace SoftmaxShift

open Idealize.ShloMosaic

variable {ι : Type*}

/-- The state after the first `n` keys: some real statistic, and the two kinds of sums shifted by it. -/
def RowInv (s : ℕ → ℝ) (w : ι → ℕ → ℝ) (n : ℕ) (m l : EReal) (a : ι → EReal) : Prop :=
  ∃ M : ℝ, m = (M : EReal)
    ∧ l = ((∑ k ∈ Finset.range n, Real.exp (s k - M) : ℝ) : EReal)
    ∧ ∀ d, a d = ((∑ k ∈ Finset.range n, Real.exp (s k - M) * w d k : ℝ) : EReal)

theorem sum_fin_eq_range {T : ℕ} (g : ℕ → ℝ) : ∑ j : Fin T, g j.val = ∑ k ∈ Finset.range T, g k :=
  (Finset.sum_range g).symm

/-- The first block, from the empty state. -/
theorem rowInv_first {T : ℕ} (hT : 0 < T) (s : ℕ → ℝ) (w : ι → ℕ → ℝ) (σ : Fin T → EReal) (ν : ι → Fin T → EReal)
    (hσ : ∀ j, σ j = ((s j.val : ℝ) : EReal)) (hν : ∀ d j, ν d j = ((w d j.val : ℝ) : EReal))
    (m' l' : EReal) (a' : ι → EReal)
    (hm : m' = max (⊥ : EReal) ((Finset.univ : Finset (Fin T)).fold max (⊥ : EReal) σ))
    (hl : l' = Ideal.exp ((⊥ : EReal) - m') * 0 + ∑ j : Fin T, Ideal.exp (σ j - m'))
    (ha : ∀ d, a' d = Ideal.exp ((⊥ : EReal) - m') * 0 + ∑ j : Fin T, Ideal.exp (σ j - m') * ν d j) :
    RowInv s w T m' l' a' := by
  have hσ' : σ = fun j => ((s j.val : ℝ) : EReal) := funext hσ
  obtain ⟨c, hc⟩ := fold_max_coe_real hT (fun j => s j.val)
  have hm' : m' = (c : EReal) := by rw [hm, hσ', hc, max_bot_coe]
  refine ⟨c, hm', ?_, fun d => ?_⟩
  · rw [hl, hm', hσ']
    rw [tile_first_unit (fun j => s j.val) c]
    exact congrArg _ (sum_fin_eq_range fun k => Real.exp (s k - c))
  · rw [ha d, hm', hσ']
    have hν' : ν d = fun j => ((w d j.val : ℝ) : EReal) := funext (hν d)
    rw [hν']
    rw [tile_first (fun j => s j.val) (fun j => w d j.val) c]
    exact congrArg _ (sum_fin_eq_range fun k => Real.exp (s k - c) * w d k)

/-- A further block, from a state after `n0` keys. -/
theorem rowInv_next {T : ℕ} (hT : 0 < T) (s : ℕ → ℝ) (w : ι → ℕ → ℝ) (n0 : ℕ) (m l : EReal) (a : ι → EReal)
    (hinv : RowInv s w n0 m l a) (σ : Fin T → EReal) (ν : ι → Fin T → EReal)
    (hσ : ∀ j, σ j = ((s (n0 + j.val) : ℝ) : EReal)) (hν : ∀ d j, ν d j = ((w d (n0 + j.val) : ℝ) : EReal))
    (m' l' : EReal) (a' : ι → EReal)
    (hm : m' = max m ((Finset.univ : Finset (Fin T)).fold max (⊥ : EReal) σ))
    (hl : l' = Ideal.exp (m - m') * l + ∑ j : Fin T, Ideal.exp (σ j - m'))
    (ha : ∀ d, a' d = Ideal.exp (m - m') * a d + ∑ j : Fin T, Ideal.exp (σ j - m') * ν d j) :
    RowInv s w (n0 + T) m' l' a' := by
  obtain ⟨M, hM, hL, hA⟩ := hinv
  have hσ' : σ = fun j => ((s (n0 + j.val) : ℝ) : EReal) := funext hσ
  obtain ⟨c, hc⟩ := fold_max_coe_real hT (fun j => s (n0 + j.val))
  have hm' : m' = ((max M c : ℝ) : EReal) := by rw [hm, hM, hσ', hc, max_coe_coe]
  refine ⟨max M c, hm', ?_, fun d => ?_⟩
  · rw [hl, hm', hM, hL, hσ']
    rw [tile_next_unit (fun j => s (n0 + j.val)) M (max M c)]
    refine congrArg _ ?_
    rw [rescale_unit, Finset.sum_range_add]
    exact congrArg _ (sum_fin_eq_range fun k => Real.exp (s (n0 + k) - max M c))
  · rw [ha d, hm', hM, hA d, hσ']
    have hν' : ν d = fun j => ((w d (n0 + j.val) : ℝ) : EReal) := funext (hν d)
    rw [hν']
    rw [tile_next (fun j => s (n0 + j.val)) (fun j => w d (n0 + j.val)) M (max M c)]
    refine congrArg _ ?_
    rw [rescale, Finset.sum_range_add]
    exact congrArg _ (sum_fin_eq_range fun k => Real.exp (s (n0 + k) - max M c) * w d (n0 + k))

/-- The quotient of the two sums is the exp-weighted mean, whatever the statistic. -/
theorem rowInv_out (s : ℕ → ℝ) (w : ι → ℕ → ℝ) (n : ℕ) (hn : 0 < n) (m l : EReal) (a : ι → EReal)
    (hinv : RowInv s w n m l a) (d : ι) :
    Ideal.div (a d) l
      = (((∑ k ∈ Finset.range n, Real.exp (s k) * w d k) / (∑ k ∈ Finset.range n, Real.exp (s k)) : ℝ) : EReal) := by
  obtain ⟨M, _, hL, hA⟩ := hinv
  rw [hA d, hL]
  exact ratio_shift (Finset.range n) (Finset.nonempty_range_iff.2 (Nat.pos_iff_ne_zero.1 hn)) s (w d) M

end SoftmaxShift

end
-- ==== Proof.KernelRows.lean ====
/-
  The carried buffers hold the running softmax sums, by induction over the grid points.

  Fix the four arrays (scaled queries Q, keys K, values V, mask) with real entries. For pair b and
  query row q write s(k) for the score of key row k (zero beyond the last key row) and w(d,k) for
  the value entry V(b,k,d). After the grid point that handles key block number kb of the query
  block holding q, entry (b, r) of the three carried buffers is a row state after the first
  16 * (kb + 1) key rows: a real statistic M, the normaliser sum of exp(s(k) - M), and for every
  feature d the weighted sum of exp(s(k) - M) * w(d,k). At the first key block this is the block
  update applied to the reset values; afterwards the update applied to the state the point before
  left, which belongs to the same query rows. At the last key block (all 1024 key rows seen) the
  output block holds a(d) / l, which is the softmax attention value whatever M is.
-/
import proofs.«137137_j50251117363623_2_alg».proof.Proof.KernelBlocks
import proofs.«137137_j50251117363623_2_alg».proof.Proof.KernelStep
import proofs.«137137_j50251117363623_2_alg».proof.Proof.Consts
import proofs.«137137_j50251117363623_2_alg».proof.Proof.LibOnlineRow

noncomputable section

open Idealize.ShloMosaic Idealize.ShloMosaic.TcCoe Idealize.SL.Sem

namespace Cert.KernelIdeal.Rows

open Cert.KernelIdeal Cert.KernelIdeal.Gen Cert.KernelIdeal.Pieces Cert.KernelIdeal.Step Cert.KernelIdeal.Blocks
open Cert.Attention SoftmaxShift Idealize.ShloMosaic.ValueIdx

/-- The score of key row `k` for query row `q` of pair `b`, as a function of a natural number (zero past the last row). -/
def sN (Qa Ka : SQ.Idx → EReal) (Ma : SMask.Idx → EReal) (b : Fin 64) (q : Fin 1024) (k : ℕ) : ℝ :=
  if h : k < 1024 then score (re3 Qa) (re3 Ka) (reM Ma) b q ⟨k, h⟩ else 0
/-- The value entry (pair b, key row k, feature d), as a function of a natural number. -/
def vN (Va : SQ.Idx → EReal) (b : Fin 64) (d : Fin 64) (k : ℕ) : ℝ :=
  if h : k < 1024 then re3 Va b ⟨k, h⟩ d else 0

theorem attn_eq_range (Qa Ka Va : SQ.Idx → EReal) (Ma : SMask.Idx → EReal) (b : Fin 64) (q : Fin 1024) (d : Fin 64) :
    attn (re3 Qa) (re3 Ka) (re3 Va) (reM Ma) b q d
      = (∑ k ∈ Finset.range 1024, Real.exp (sN Qa Ka Ma b q k) * vN Va b d k) / (∑ k ∈ Finset.range 1024, Real.exp (sN Qa Ka Ma b q k)) := by
  unfold attn
  rw [Finset.sum_range, Finset.sum_range]
  refine congrArg₂ (· / ·) (Finset.sum_congr rfl fun k _ => ?_) (Finset.sum_congr rfl fun k _ => ?_)
  · unfold sN vN; rw [dif_pos k.isLt, dif_pos k.isLt]
  · unfold sN; rw [dif_pos k.isLt]

variable (m : (ℓ : Loc nD τ sig) → Buf (Elt Ideal) ℓ) (c : Dev nD)
variable (Qa Ka Va : SQ.Idx → EReal) (Ma : SMask.Idx → EReal)

/-- The hypotheses: each block is the stated part of its array, and the arrays have real entries. -/
structure Setting : Prop where
  hq : ∀ (t : Fin cfg0.N) (b : Fin 64) (r : Fin 128) (e : Fin 64), xq m c t (ix3 b r e) = Qa (ix3 b (qrow t.val t.isLt r) e)
  hk : ∀ (t : Fin cfg0.N) (b : Fin 64) (j : Fin 16) (e : Fin 64), xk m c t (ix3 b j e) = Ka (ix3 b (krow t.val j) e)
  hv : ∀ (t : Fin cfg0.N) (b : Fin 64) (j : Fin 16) (e : Fin 64), xv m c t (ix3 b j e) = Va (ix3 b (krow t.val j) e)
  hm : ∀ (t : Fin cfg0.N) (r : Fin 128) (j : Fin 16) (b : Fin 64), xm m c t (ix3 r j b) = Ma (ix3 (qrow t.val t.isLt r) (krow t.val j) b)
  rQ : RealValued Qa
  rK : RealValued Ka
  rV : RealValued Va
  rM : RealValued Ma

variable {m c Qa Ka Va Ma}

/-- A block's score entry is the real score of the corresponding rows of the arrays. -/
theorem sc_eq (S : Setting m c Qa Ka Va Ma) (t : Fin cfg0.N) (b : Fin 64) (r : Fin 128) (j : Fin 16) :
    sc (xq m c t) (xk m c t) (xm m c t) b r j
      = ((sN Qa Ka Ma b (qrow t.val t.isLt r) (16 * (t.val % 64) + j.val) : ℝ) : EReal) := by
  have hj : 16 * (t.val % 64) + j.val < 1024 := by have := j.isLt; omega
  unfold sc sN
  rw [dif_pos hj, Consts.ofBits_one_eq, Consts.ofBits_scale_eq, S.hm t r j b, reM_spec S.rM]
  have e1 : ∀ e : Fin 64, xq m c t (ix3 b r e) * xk m c t (ix3 b j e)
      = ((re3 Qa b (qrow t.val t.isLt r) e * re3 Ka b (krow t.val j) e : ℝ) : EReal) := fun e => by
    rw [S.hq t b r e, S.hk t b j e, re3_spec S.rQ, re3_spec S.rK, ← EReal.coe_mul]
  rw [Finset.sum_congr rfl fun e _ => e1 e, ← coe_sum, ← EReal.coe_sub, ← EReal.coe_mul, ← EReal.coe_add]
  rfl

/-- A block's value entry is the real value entry of the corresponding row of the array. -/
theorem xv_eq (S : Setting m c Qa Ka Va Ma) (t : Fin cfg0.N) (b : Fin 64) (j : Fin 16) (d : Fin 64) :
    xv m c t (ix3 b j d) = ((vN Va b d (16 * (t.val % 64) + j.val) : ℝ) : EReal) := by
  have hj : 16 * (t.val % 64) + j.val < 1024 := by have := j.isLt; omega
  unfold vN
  rw [dif_pos hj, S.hv t b j d, re3_spec S.rV]
  rfl

/-- A point that begins a query block leaves a row state after the first 16 key rows. -/
theorem inv_first (S : Setting m c Qa Ka Va Ma) (t : Fin cfg0.N) (h0 : t.val % 64 = 0) (b : Fin 64) (r : Fin 128) :
    RowInv (sN Qa Ka Ma b (qrow t.val t.isLt r)) (vN Va b) (16 * (t.val % 64 + 1))
      (mAt m c t.val t.isLt (ix3 b r 0)) (lAt m c t.val t.isLt (ix3 b r 0)) (fun d => aAt m c t.val t.isLt (ix3 b r d)) := by
  have h1 : ¬t.val % 64 = 63 := by omega
  obtain ⟨eM, eL, eA⟩ := outs_A m c t h0 h1
  rw [eM, eL, eA, h0]
  refine rowInv_first (by decide : 0 < 16) _ _ (fun j => sc (xq m c t) (xk m c t) (xm m c t) b r j)
    (fun d j => xv m c t (ix3 b j d)) (fun j => ?_) (fun d j => ?_) _ _ _ ?_ ?_ (fun d => ?_)
  · rw [sc_eq S t b r j, h0, Nat.mul_zero, Nat.zero_add]
  · rw [xv_eq S t b j d, h0, Nat.mul_zero, Nat.zero_add]
  · rw [mStep_apply]; unfold mnew mcur; rw [pay5_apply, Consts.ofBits_neg_inf]
  · rw [lStep_apply, mStep_apply, pay5_apply, pay6_apply, Consts.ofBits_neg_inf, Ideal.ofBits_zero_f32]
  · rw [aStep_apply, mStep_apply, pay5_apply, pay7_apply, Consts.ofBits_neg_inf, Ideal.ofBits_zero_f32]

/-- A later point of a query block turns the row state the point before left into the next one. -/
theorem inv_next (S : Setting m c Qa Ka Va Ma) (t : Fin cfg0.N) (h0 : ¬t.val % 64 = 0) (b : Fin 64) (r : Fin 128)
    (ih : RowInv (sN Qa Ka Ma b (qrow t.val t.isLt r)) (vN Va b) (16 * (t.val % 64))
      (mAt m c (t.val - 1) (Nat.lt_of_le_of_lt (Nat.sub_le _ _) t.isLt) (ix3 b r 0))
      (lAt m c (t.val - 1) (Nat.lt_of_le_of_lt (Nat.sub_le _ _) t.isLt) (ix3 b r 0))
      (fun d => aAt m c (t.val - 1) (Nat.lt_of_le_of_lt (Nat.sub_le _ _) t.isLt) (ix3 b r d))) :
    RowInv (sN Qa Ka Ma b (qrow t.val t.isLt r)) (vN Va b) (16 * (t.val % 64 + 1))
      (mAt m c t.val t.isLt (ix3 b r 0)) (lAt m c t.val t.isLt (ix3 b r 0)) (fun d => aAt m c t.val t.isLt (ix3 b r d)) := by
  have e16 : 16 * (t.val % 64 + 1) = 16 * (t.val % 64) + 16 := by omega
  have key : mAt m c t.val t.isLt = mStep (xq m c t) (xk m c t) (xm m c t) (mAt m c (t.val - 1) (Nat.lt_of_le_of_lt (Nat.sub_le _ _) t.isLt))
      ∧ lAt m c t.val t.isLt = lStep (xq m c t) (xk m c t) (xm m c t) (mAt m c (t.val - 1) (Nat.lt_of_le_of_lt (Nat.sub_le _ _) t.isLt)) (lAt m c (t.val - 1) (Nat.lt_of_le_of_lt (Nat.sub_le _ _) t.isLt))
      ∧ aAt m c t.val t.isLt = aStep (xq m c t) (xk m c t) (xv m c t) (xm m c t) (mAt m c (t.val - 1) (Nat.lt_of_le_of_lt (Nat.sub_le _ _) t.isLt)) (aAt m c (t.val - 1) (Nat.lt_of_le_of_lt (Nat.sub_le _ _) t.isLt)) := by
    by_cases h1 : t.val % 64 = 63
    · exact ⟨(outs_C m c t h0 h1).1, (outs_C m c t h0 h1).2.1, (outs_C m c t h0 h1).2.2.1⟩
    · exact outs_B m c t h0 h1
  obtain ⟨eM, eL, eA⟩ := key
  rw [eM, eL, eA, e16]
  refine rowInv_next (by decide : 0 < 16) _ _ _ _ _ _ ih (fun j => sc (xq m c t) (xk m c t) (xm m c t) b r j)
    (fun d j => xv m c t (ix3 b j d)) (fun j => ?_) (fun d j => ?_) _ _ _ ?_ ?_ (fun d => ?_)
  · exact sc_eq S t b r j
  · exact xv_eq S t b j d
  · rw [mStep_apply]; rfl
  · rw [lStep_apply, mStep_apply]
  · rw [aStep_apply, mStep_apply]

theorem qrow_pred (t : Fin cfg0.N) (h0 : ¬t.val % 64 = 0) (r : Fin 128) :
    qrow (t.val - 1) (Nat.lt_of_le_of_lt (Nat.sub_le _ _) t.isLt) r = qrow t.val t.isLt r := by
  unfold qrow
  refine Fin.ext ?_
  show 128 * ((t.val - 1) / 64) + r.val = 128 * (t.val / 64) + r.val
  have : (t.val - 1) / 64 = t.val / 64 := by omega
  rw [this]

/-- After every grid point the carried buffers hold a row state after the key rows seen so far. -/
theorem inv_all (S : Setting m c Qa Ka Va Ma) : ∀ (n : ℕ) (hn : n < cfg0.N) (b : Fin 64) (r : Fin 128),
    RowInv (sN Qa Ka Ma b (qrow n hn r)) (vN Va b) (16 * (n % 64 + 1))
      (mAt m c n hn (ix3 b r 0)) (lAt m c n hn (ix3 b r 0)) (fun d => aAt m c n hn (ix3 b r d)) := by
  intro n
  induction n with
  | zero => intro hn b r; exact inv_first S ⟨0, hn⟩ rfl b r
  | succ n ih =>
    intro hn b r
    by_cases h0 : (n + 1) % 64 = 0
    · exact inv_first S ⟨n + 1, hn⟩ h0 b r
    · refine inv_next S ⟨n + 1, hn⟩ h0 b r ?_
      have hp := ih (Nat.lt_of_succ_lt hn) b r
      have eq1 : qrow n (Nat.lt_of_succ_lt hn) r = qrow (n + 1) hn r := qrow_pred ⟨n + 1, hn⟩ h0 r
      have eq2 : 16 * (n % 64 + 1) = 16 * ((n + 1) % 64) := by omega
      rw [eq1, eq2] at hp
      exact hp

/-- At the last key block the output block holds the attention value of its rows. -/
theorem out_block (S : Setting m c Qa Ka Va Ma) (t : Fin cfg0.N) (h1 : t.val % 64 = 63) (b : Fin 64) (r : Fin 128) (d : Fin 64) :
    oAt m c t.val t.isLt (ix3 b r d) = G Qa Ka Va Ma (ix3 b (qrow t.val t.isLt r) d) := by
  have h0 : ¬t.val % 64 = 0 := by omega
  rw [(outs_C m c t h0 h1).2.2.2, out_apply, G_apply, attn_eq_range]
  have hi := inv_all S t.val t.isLt b r
  have e : 16 * (t.val % 64 + 1) = 1024 := by omega
  rw [e] at hi
  exact rowInv_out _ _ 1024 (by decide) _ _ _ hi d

end Cert.KernelIdeal.Rows

end
-- ==== Proof.KernelArray.lean ====
/-
  From the blocks to the whole result array, and through the host lines around the region.

  The output window covers query rows 128 * (t / 64) + r at point t and is written back only at
  the last key block of each query block (t % 64 = 63), when its staging buffer holds the attention
  value of exactly those rows. Every row of the result lies in one such block (the point
  64 * (row / 128) + 63), so the region leaves the attention array whole. Before the region the
  host forms the scaled queries, keys and values by the same re-layouts (and the same scaling word)
  as the reference does; after it, the same transpose and reshape.
-/
import proofs.«137137_j50251117363623_2_alg».proof.Proof.KernelRows
import proofs.«137137_j50251117363623_2_alg».proof.Proof.Gen.ReferenceIdeal.Read
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Blocks Cert.KernelIdeal.Rows
open Cert.Attention Idealize.ShloMosaic.ValueIdx

variable (m : (ℓ : Loc nD τ sig) → Buf (Elt Ideal) ℓ) (ρ : Dev nD → PrngReg)

/-- The four arrays the region finds: scaled queries, keys, values (host-made) and the mask argument. -/
def Qa (c : Dev nD) : SQ.Idx → EReal := V m c main_v4
def Ka (c : Dev nD) : SQ.Idx → EReal := V m c main_v7
def Va (c : Dev nD) : SQ.Idx → EReal := V m c main_v10
def Ma (c : Dev nD) : SMask.Idx → EReal := V m c main_arg3

/-- The arrays have real entries (what the precondition gives). -/
def Reals (c : Dev nD) : Prop :=
  RealValued (Qa m c) ∧ RealValued (Ka m c) ∧ RealValued (Va m c) ∧ RealValued (Ma m c)

theorem setting (c : Dev nD) (h : Reals m c) : Setting m c (Qa m c) (Ka m c) (Va m c) (Ma m c) where
  hq := fun t b r e => xq_apply m c t b r e
  hk := fun t b j e => xk_apply m c t b j e
  hv := fun t b j e => xv_apply m c t b j e
  hm := fun t r j b => xm_apply m c t r j b
  rQ := h.1
  rK := h.2.1
  rV := h.2.2.1
  rM := h.2.2.2

/-- The attention array, as contents of the region's result array. -/
def Garr (c : Dev nD) : Buf (Elt Ideal) ((c : Thread nD τ).loc main_v11) := G (Qa m c) (Ka m c) (Va m c) (Ma m c)

/-- What a writing-back point writes is its block of the attention array. -/
theorem flushed_eq (c : Dev nD) (h : Reals m c) (t : Fin cfg0.N) (hf : (cfg0.win 4).flush t = true) :
    (dats m 0 c).flushed 4 t = ((cfg0.win 4).blk t).view.read (Elt Ideal) (Garr m c) := by
  have h1 : t.val % 64 = 63 := (flush0_4 t).mp hf
  obtain ⟨_, _, _, _, ⟨i0, i1, i2⟩⟩ := idx_facts t
  show (cfg0.win 4).cut (grid0.coords t) ((dats m 0 c).after 4 t) = _
  rw [after0_4]
  funext j
  obtain ⟨b, r, d, rfl⟩ : ∃ (b : Fin 64) (r : Fin 128) (d : Fin 64), j = ix3 b r d := ⟨j 0, j 1, j 2, eq_ix3 j⟩
  show oAt m c t.val t.isLt (ix3 b r d) = Garr m c (((cfg0.win 4).blk t).view.emb (ix3 b r d))
  rw [out_block (setting m c h) t h1 b r d]
  unfold Garr
  refine congrArg (G (Qa m c) (Ka m c) (Va m c) (Ma m c)) (funext fun a => Fin.ext ?_)
  match a with
  | ⟨0, _⟩ => show b.val = win0_4.index t 0 * 64 + 1 * b.val; rw [i0]; omega
  | ⟨1, _⟩ => show 128 * (t.val / 64) + r.val = win0_4.index t 1 * 128 + 1 * r.val; rw [i1]; omega
  | ⟨2, _⟩ => show d.val = win0_4.index t 2 * 64 + 1 * d.val; rw [i2]; omega

/-- An index of the result array is in point `t`'s block iff each coordinate is in the block's range. -/
theorem mem_blk (t : Fin cfg0.N) (i : S64x1024x64.Idx) :
    i ∈ ((cfg0.win 4).blk t).view.set ↔ ∀ a : Fin 3, win0_4.index t a * S64x128x64.size a ≤ (i a).val ∧ (i a).val < win0_4.index t a * S64x128x64.size a + S64x128x64.size a := by
  show i ∈ ((View.whole main_v11).slice (win0_4.rect t)).set ↔ _
  rw [View.set_slice_whole, Rect.mem_set_unit]
  exact Iff.rfl

/-- Every index of the result array is in the block of a point that writes back. -/
theorem cover (i : S64x1024x64.Idx) : ∃ t : Fin cfg0.N, (cfg0.win 4).flush t = true ∧ i ∈ ((cfg0.win 4).blk t).view.set := by
  have hi0 : (i 0).val < 64 := (i 0).isLt
  have hi1 : (i 1).val < 1024 := (i 1).isLt
  have hi2 : (i 2).val < 64 := (i 2).isLt
  have hN : cfg0.N = 512 := N_0
  let t : Fin cfg0.N := ⟨64 * ((i 1).val / 128) + 63, by rw [hN]; omega⟩
  have ht : t.val = 64 * ((i 1).val / 128) + 63 := rfl
  obtain ⟨_, _, _, _, ⟨i0, i1, i2⟩⟩ := idx_facts t
  refine ⟨t, (flush0_4 t).mpr (by rw [ht]; omega), ?_⟩
  rw [mem_blk]
  intro a
  match a with
  | ⟨0, _⟩ => show win0_4.index t 0 * 64 ≤ (i 0).val ∧ (i 0).val < win0_4.index t 0 * 64 + 64; rw [i0]; omega
  | ⟨1, _⟩ => show win0_4.index t 1 * 128 ≤ (i 1).val ∧ (i 1).val < win0_4.index t 1 * 128 + 128; rw [i1, ht]; omega
  | ⟨2, _⟩ => show win0_4.index t 2 * 64 ≤ (i 2).val ∧ (i 2).val < win0_4.index t 2 * 64 + 64; rw [i2]; omega

/-- The region leaves the attention array in its result array. -/
theorem final (c : Dev nD) (h : Reals m c) : (dats m 0 c).arrAt 4 cfg0.N = Garr m c :=
  (dats m 0 c).arrAt_eq_of_cover 4 (Garr m c) (fun t hf => flushed_eq m c h t hf) (cover)

/-- The two host lines after the region, as one function of the region's result array. -/
def tail (c : Dev nD) (y : Buf (Elt Ideal) ((c : Thread nD τ).loc main_v11)) : Buf (Elt Ideal) ((c : Thread nD τ).loc main_v13) :=
  shapeCast _ (transpose S1024x64x64 [1, 0, 2] y transposes_S64x1024x64_S1024x64x64_1_0_2) shapeCasts_S1024x64x64_S1024x4x1024

/-- @main's result is the tail of the attention array. -/
theorem result_eq (c : Dev nD) (h : Reals m c) :
    Pipeline.afterTail₀ cfgs (dats m) 0 (V0 m) [hostOps1] c main_v13 = tail c (Garr m c) := by
  unfold Pipeline.afterTail₀
  show StableHlo.after hostOps1 _ (Proc.devRef .tc main_v13) = _
  after_results
  unfold tail
  rw [(Pipeline.withArrays_arr spec0 launch0.win.arr_inj c _ _ 4).trans (final m c h)]

/-- The host lines before the region make the same scaled queries, keys and values as the reference's. -/
theorem Qa_eq (c : Dev nD) : Qa m c = Cert.ReferenceIdeal.Read.val_main_v4 (F := Ideal) (m ((c : Thread nD τ).loc main_arg0)) := by
  unfold Qa
  show StableHlo.after hostOps0 (fun b => m (c, b)) (Proc.devRef .tc main_v4) = _
  after_results
  rfl
theorem Ka_eq (c : Dev nD) : Ka m c = Cert.ReferenceIdeal.Read.val_main_v7 (F := Ideal) (m ((c : Thread nD τ).loc main_arg1)) := by
  unfold Ka
  show StableHlo.after hostOps0 (fun b => m (c, b)) (Proc.devRef .tc main_v7) = _
  after_results
  rfl
theorem Va_eq (c : Dev nD) : Va m c = Cert.ReferenceIdeal.Read.val_main_v10 (F := Ideal) (m ((c : Thread nD τ).loc main_arg2)) := by
  unfold Va
  show StableHlo.after hostOps0 (fun b => m (c, b)) (Proc.devRef .tc main_v10) = _
  after_results
  rfl
theorem Ma_eq (c : Dev nD) : Ma m c = m ((c : Thread nD τ).loc main_arg3) := by
  unfold Ma
  exact V_main_arg3 m c

/-- The kernel's run, read: @main's result at the tail of the attention array, the arguments unchanged. -/
theorem run (hR : ∀ c, Reals m c) : θ_run defs (onTc (τ := τ) (main (F := Ideal))) ⟨m, fun _ => 0, ρ⟩ fun r => ∀ c : Dev nD,
      r.2.mem ((c.tc : Thread nD τ).loc main_v13) = tail c (Garr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
      ((h c).2 main_v13 (Pipeline.mem_restRefs_of main_v13 (by decide) (by decide))).trans (result_eq m c (hR c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.Arr

end
-- ==== Proof.RefValue.lean ====
/-
  The idealized reference program computes softmax attention.

  The reference forms scaled queries, keys and values (three (pair, row, feature) arrays), adds the
  mask term to the query-key products, subtracts each row's maximum, exponentiates, divides by the
  row sum and takes the weighted sum of the value rows. Subtracting a real row statistic does not
  change a softmax, so on real-valued arrays the result is the exp-weighted mean of the value rows,
  which is the function `Cert.Attention.G`.
-/
import proofs.«137137_j50251117363623_2_alg».proof.Proof.Gen.ReferenceIdeal.Read
import proofs.«137137_j50251117363623_2_alg».proof.Proof.Spec
import proofs.«137137_j50251117363623_2_alg».proof.Proof.LibSoftmaxShift
import proofs.«137137_j50251117363623_2_alg».proof.Proof.Consts
import proofs.«137137_j50251117363623_2_alg».proof.Pre_finite_inputs
import proofs.«137137_j50251117363623_2_alg».proof.Proof.Gen.Pre_finite_inputs
import Idealize.ShloMosaic.Lib.ValueIdx
import Idealize.ShloMosaic.Lib.Pipeline.Value
import Idealize.ShloMosaic.PureOps.Ideal.Laws
import Idealize.ShloMosaic.Lib.ReduceAll

noncomputable section

namespace Cert.Attention.Ref

open Cert.ReferenceIdeal Cert.ReferenceIdeal.Gen Idealize.ShloMosaic Idealize.ShloMosaic.TcCoe Idealize.SL.Sem Idealize.ShloMosaic.StableHlo
open Idealize.ShloMosaic.ValueIdx

section Core

variable (x0 x1 x2 : (⟨Cert.ReferenceIdeal.S1024x4x1024, .f32⟩ : BufTy).Contents (Elt Ideal))
  (x3 : (⟨Cert.ReferenceIdeal.S1024x1024x64, .f32⟩ : BufTy).Contents (Elt Ideal))

/-- The score array at (pair, query row, key row) is the real score of the specification. -/
theorem score_eq (hQ : RealValued (Read.val_main_v4 (F := Ideal) x0)) (hK : RealValued (Read.val_main_v7 (F := Ideal) x1)) (hM : RealValued x3)
    (b : Fin 64) (q k : Fin 1024) :
    Read.val_main_v17 (F := Ideal) x0 x1 x3 (ix3 b q k)
      = ((score (re3 (Read.val_main_v4 (F := Ideal) x0)) (re3 (Read.val_main_v7 (F := Ideal) x1)) (reM x3) b q k : ℝ) : EReal) := by
  have hl : ∀ e : Fin 64, Read.lidx_main_v11 (ix3 b q k) e = ix3 b q e := fun e =>
    funext fun a => match a with | ⟨0, _⟩ => rfl | ⟨1, _⟩ => rfl | ⟨2, _⟩ => rfl
  have hr : ∀ e : Fin 64, Read.ridx_main_v11 (ix3 b q k) e = ix3 b k e := fun e =>
    funext fun a => match a with | ⟨0, _⟩ => rfl | ⟨1, _⟩ => rfl | ⟨2, _⟩ => rfl
  have hm : Read.idx_main_v12 (ix3 b q k) = ix3 q k b :=
    funext fun a => match a with | ⟨0, _⟩ => rfl | ⟨1, _⟩ => rfl | ⟨2, _⟩ => rfl
  rw [Read.val_main_v17_apply, Read.val_main_v11_apply, Read.val_main_v16_apply, Read.val_main_v14_apply, Read.val_main_v12_apply,
    Read.val_main_v13_apply, Read.val_main_v15_apply, Read.val_main_cst_0_apply, Read.val_main_cst_1_apply, hm]
  simp only [Ideal.addf_def, Ideal.mulf_def, Ideal.subf_def, Ideal.ofBits_def]
  rw [Consts.ofBits_one_eq, Consts.ofBits_scale_eq, reM_spec hM]
  have hs : (∑ e : Fin 64, Read.val_main_v4 (F := Ideal) x0 (Read.lidx_main_v11 (ix3 b q k) e) * Read.val_main_v7 (F := Ideal) x1 (Read.ridx_main_v11 (ix3 b q k) e))
      = ((∑ e : Fin 64, re3 (Read.val_main_v4 (F := Ideal) x0) b q e * re3 (Read.val_main_v7 (F := Ideal) x1) b k e : ℝ) : EReal) := by
    rw [SoftmaxShift.coe_sum]
    refine Finset.sum_congr rfl fun e _ => ?_
    rw [hl e, hr e, re3_spec hQ, re3_spec hK, EReal.coe_mul]
  rw [hs, ← EReal.coe_sub, ← EReal.coe_mul, ← EReal.coe_add]
  rfl

end Core

section Core2

variable (x0 x1 x2 : (⟨Cert.ReferenceIdeal.S1024x4x1024, .f32⟩ : BufTy).Contents (Elt Ideal))
  (x3 : (⟨Cert.ReferenceIdeal.S1024x1024x64, .f32⟩ : BufTy).Contents (Elt Ideal))

/-- The reduced index (pair, query row) with the key row put back is (pair, query row, key row). -/
theorem lift_ix (h : S64x1024x1024.Reduces [2] S64x1024) (b : Fin 64) (q : Fin 1024) (k : Fin (S64x1024x1024.size 2)) :
    h.lift (ix2 b q) k = ix3 b q (⟨k.val, k.isLt⟩ : Fin 1024) := by
  funext c; apply Fin.ext
  fin_cases c <;> rfl

/-- The row-maximum stage is the reduction of the score array by the maximum, from the bottom word, over the key axis. -/
theorem v18_def : Read.val_main_v18 (F := Ideal) x0 x1 x3
    = Host.reduce (α := Ideal .f32) (FloatOps.maximumf (F := Ideal) (φ := .f32)) (Read.val_main_v17 (F := Ideal) x0 x1 x3)
        (Read.val_main_cst_2 (F := Ideal)) Gen.reducesTo_S64x1024x1024_S64x1024_d2 Gen.h_S_ := rfl

/-- Each row's maximum, taken from bottom over the 1024 real scores of the row, is a real number. -/
theorem rowmax_real (hQ : RealValued (Read.val_main_v4 (F := Ideal) x0)) (hK : RealValued (Read.val_main_v7 (F := Ideal) x1)) (hM : RealValued x3)
    (b : Fin 64) (q : Fin 1024) :
    ∃ M : ℝ, Read.val_main_v20 (F := Ideal) x0 x1 x3 (ix2 b q) = (M : EReal) := by
  have h : S64x1024x1024.Reduces [2] S64x1024 := by decide
  rw [Read.val_main_v20_apply, Read.val_main_v19_apply, Read.val_main_cst_3_apply]
  rw [v18_def]
  rw [Host.reduce_eq_fold_single FloatOps.maximumf _ _ reducesTo_S64x1024x1024_S64x1024_d2 h h_S_]
  have hf : (Read.val_main_v17 (F := Ideal) x0 x1 x3 ∘ h.lift (ix2 b q))
      = fun k : Fin 1024 => ((score (re3 (Read.val_main_v4 (F := Ideal) x0)) (re3 (Read.val_main_v7 (F := Ideal) x1)) (reM x3) b q k : ℝ) : EReal) :=
    funext fun k => (congrArg (Read.val_main_v17 (F := Ideal) x0 x1 x3) (lift_ix h b q k)).trans (score_eq x0 x1 x3 hQ hK hM b q ⟨k.val, k.isLt⟩)
  obtain ⟨c, hc⟩ := SoftmaxShift.fold_max_coe_real (n := 1024) (by decide)
    (fun k => score (re3 (Read.val_main_v4 (F := Ideal) x0)) (re3 (Read.val_main_v7 (F := Ideal) x1)) (reM x3) b q k)
  refine ⟨c, ?_⟩
  rw [hf, Read.val_main_cst_2_apply]
  show max (Ideal.ofBits .f32 0xFF800000#32) (Finset.fold max (Ideal.ofBits .f32 0xFF800000#32) _ Finset.univ) = _
  rw [Consts.ofBits_neg_inf]
  exact (congrArg (max (⊥ : EReal)) hc).trans (SoftmaxShift.max_bot_coe c)

end Core2

section Core3

variable (x0 x1 x2 : (⟨Cert.ReferenceIdeal.S1024x4x1024, .f32⟩ : BufTy).Contents (Elt Ideal))
  (x3 : (⟨Cert.ReferenceIdeal.S1024x1024x64, .f32⟩ : BufTy).Contents (Elt Ideal))

/-- The real score of key row `k` for query row `q` of pair `b`, of the reference's three head arrays and mask. -/
def sc (b : Fin 64) (q k : Fin 1024) : ℝ :=
  score (re3 (Read.val_main_v4 (F := Ideal) x0)) (re3 (Read.val_main_v7 (F := Ideal) x1)) (reM x3) b q k

/-- The row statistic the reference subtracts, read as a real number. -/
def rowM (b : Fin 64) (q : Fin 1024) : ℝ := (Read.val_main_v20 (F := Ideal) x0 x1 x3 (ix2 b q)).toReal

theorem rowM_spec (hQ : RealValued (Read.val_main_v4 (F := Ideal) x0)) (hK : RealValued (Read.val_main_v7 (F := Ideal) x1)) (hM : RealValued x3)
    (b : Fin 64) (q : Fin 1024) :
    Read.val_main_v20 (F := Ideal) x0 x1 x3 (ix2 b q) = (rowM x0 x1 x3 b q : EReal) := by
  obtain ⟨M, hM'⟩ := rowmax_real x0 x1 x3 hQ hK hM b q
  unfold rowM; rw [hM']; rfl

/-- The exponentials: exp of the score minus the row statistic. -/
theorem exp_eq (hQ : RealValued (Read.val_main_v4 (F := Ideal) x0)) (hK : RealValued (Read.val_main_v7 (F := Ideal) x1)) (hM : RealValued x3)
    (b : Fin 64) (q k : Fin 1024) :
    Read.val_main_v24 (F := Ideal) x0 x1 x3 (ix3 b q k)
      = Ideal.exp ((sc x0 x1 x3 b q k : EReal) - (rowM x0 x1 x3 b q : EReal)) := by
  have h22 : Read.idx_main_v21 (Read.idx_main_v22 (ix3 b q k)) = ix2 b q :=
    funext fun a => match a with | ⟨0, _⟩ => rfl | ⟨1, _⟩ => rfl
  rw [Read.val_main_v24_apply, Read.val_main_v23_apply, Read.val_main_v22_apply, Read.val_main_v21_apply, h22,
    rowM_spec x0 x1 x3 hQ hK hM, score_eq x0 x1 x3 hQ hK hM]
  rfl

/-- The row normaliser: the zero word plus the sum of the row's exponentials. -/
theorem norm_eq (hQ : RealValued (Read.val_main_v4 (F := Ideal) x0)) (hK : RealValued (Read.val_main_v7 (F := Ideal) x1)) (hM : RealValued x3)
    (b : Fin 64) (q : Fin 1024) :
    Read.val_main_v25 (F := Ideal) x0 x1 x3 (ix2 b q)
      = (0 : EReal) + ∑ j : Fin 1024, Ideal.exp ((sc x0 x1 x3 b q j : EReal) - (rowM x0 x1 x3 b q : EReal)) := by
  rw [Read.val_main_v25_apply, Read.val_main_cst_4_apply]
  simp only [Ideal.ofBits_def]
  rw [Ideal.ofBits_zero_f32]
  refine congrArg ((0 : EReal) + ·) (Finset.sum_congr rfl fun j _ => ?_)
  have hi : Read.idx_main_v25 (ix2 b q) j = ix3 b q j :=
    funext fun a => match a with | ⟨0, _⟩ => rfl | ⟨1, _⟩ => rfl | ⟨2, _⟩ => rfl
  rw [hi, exp_eq x0 x1 x3 hQ hK hM]

/-- The normalised weights: each exponential divided by its row's normaliser. -/
theorem weight_eq (hQ : RealValued (Read.val_main_v4 (F := Ideal) x0)) (hK : RealValued (Read.val_main_v7 (F := Ideal) x1)) (hM : RealValued x3)
    (b : Fin 64) (q k : Fin 1024) :
    Read.val_main_v28 (F := Ideal) x0 x1 x3 (ix3 b q k)
      = Ideal.div (Ideal.exp ((sc x0 x1 x3 b q k : EReal) - (rowM x0 x1 x3 b q : EReal)))
          ((0 : EReal) + ∑ j : Fin 1024, Ideal.exp ((sc x0 x1 x3 b q j : EReal) - (rowM x0 x1 x3 b q : EReal))) := by
  have h27 : Read.idx_main_v26 (Read.idx_main_v27 (ix3 b q k)) = ix2 b q :=
    funext fun a => match a with | ⟨0, _⟩ => rfl | ⟨1, _⟩ => rfl
  rw [Read.val_main_v28_apply, Read.val_main_v27_apply, Read.val_main_v26_apply, h27,
    norm_eq x0 x1 x3 hQ hK hM, exp_eq x0 x1 x3 hQ hK hM]
  rfl

end Core3

/-- On real-valued head arrays and mask the reference's attention stage is the specification's function of them:
    the weighted sum of the value rows with the normalised shifted weights is the exp-weighted mean. -/
theorem ref_core (x0 x1 x2 : (⟨Cert.ReferenceIdeal.S1024x4x1024, .f32⟩ : BufTy).Contents (Elt Ideal)) (x3 : (⟨Cert.ReferenceIdeal.S1024x1024x64, .f32⟩ : BufTy).Contents (Elt Ideal))
    (hQ : RealValued (Cert.ReferenceIdeal.Read.val_main_v4 (F := Ideal) x0)) (hK : RealValued (Cert.ReferenceIdeal.Read.val_main_v7 (F := Ideal) x1)) (hV : RealValued (Cert.ReferenceIdeal.Read.val_main_v10 (F := Ideal) x2)) (hM : RealValued x3) :
    Cert.ReferenceIdeal.Read.val_main_v29 (F := Ideal) x0 x1 x2 x3 = Cert.Attention.G (Cert.ReferenceIdeal.Read.val_main_v4 (F := Ideal) x0) (Cert.ReferenceIdeal.Read.val_main_v7 (F := Ideal) x1) (Cert.ReferenceIdeal.Read.val_main_v10 (F := Ideal) x2) x3 := by
  funext i
  obtain ⟨b, q, d, rfl⟩ : ∃ (b : Fin 64) (q : Fin 1024) (d : Fin 64), i = ix3 b q d := ⟨i 0, i 1, i 2, eq_ix3 i⟩
  rw [Read.val_main_v29_apply, G_apply]
  have hterm : ∀ k : Fin 1024,
      Read.val_main_v28 (F := Ideal) x0 x1 x3 (Read.lidx_main_v29 (ix3 b q d) k) * Read.val_main_v10 (F := Ideal) x2 (Read.ridx_main_v29 (ix3 b q d) k)
        = Ideal.div (Ideal.exp ((sc x0 x1 x3 b q k : EReal) - (rowM x0 x1 x3 b q : EReal)))
            ((0 : EReal) + ∑ j : Fin 1024, Ideal.exp ((sc x0 x1 x3 b q j : EReal) - (rowM x0 x1 x3 b q : EReal)))
          * ((re3 (Read.val_main_v10 (F := Ideal) x2) b k d : ℝ) : EReal) := fun k => by
    have hl : Read.lidx_main_v29 (ix3 b q d) k = ix3 b q k :=
      funext fun a => match a with | ⟨0, _⟩ => rfl | ⟨1, _⟩ => rfl | ⟨2, _⟩ => rfl
    have hr : Read.ridx_main_v29 (ix3 b q d) k = ix3 b k d :=
      funext fun a => match a with | ⟨0, _⟩ => rfl | ⟨1, _⟩ => rfl | ⟨2, _⟩ => rfl
    rw [hl, hr, weight_eq x0 x1 x3 hQ hK hM, re3_spec hV]
  refine (Finset.sum_congr rfl fun k _ => hterm k).trans ?_
  exact SoftmaxShift.normalized_sum (n := 1024) (by decide) (fun k => sc x0 x1 x3 b q k)
    (fun k => re3 (Read.val_main_v10 (F := Ideal) x2) b k d) (rowM x0 x1 x3 b q)

/-- The reference's result buffer is the reshape of the transpose of the attention stage. -/
theorem ref_result (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v31 m c
      = shapeCast _ (transpose Cert.ReferenceIdeal.S1024x64x64 [1, 0, 2]
          (Cert.ReferenceIdeal.Read.val_main_v29 (F := Ideal)
            (m ((c.tc : Thread nD τ).loc main_arg0)) (m ((c.tc : Thread nD τ).loc main_arg1))
            (m ((c.tc : Thread nD τ).loc main_arg2)) (m ((c.tc : Thread nD τ).loc main_arg3)))
          Cert.ReferenceIdeal.Facts₀.transposes_S64x1024x64_S1024x64x64_1_0_2)
        Cert.ReferenceIdeal.Facts₀.shapeCasts_S1024x64x64_S1024x4x1024 := by
  exact (Cert.ReferenceIdeal.Read.val_main_v31_eq m c).trans rfl

/-! ## Finite inputs are real-valued -/

instance : Subsingleton Cert.Pre_finite_inputs.S_.Idx := ⟨fun a b => funext fun d => d.elim0⟩

/-- An extended real whose absolute value is below the word for plus infinity is a real number. -/
theorem real_of_abs_lt_top (x : EReal)
    (h : Ideal.cmp .olt (max x (-x)) (Ideal.ofBits .f32 0x7F800000#32) = 1#1) : ∃ r : ℝ, x = (r : EReal) := by
  rw [Consts.ofBits_pos_inf] at h
  have h' : BitVec.ofBool (decide (max x (-x) < (⊤ : EReal))) = 1#1 := h
  have hlt : max x (-x) < (⊤ : EReal) := by
    by_contra hn
    rw [decide_eq_false hn] at h'
    exact absurd h' (by decide)
  induction x using EReal.rec with
  | bot => simp at hlt
  | top => simp at hlt
  | coe r => exact ⟨r, rfl⟩

/-- An array all of whose entries pass the test "absolute value below plus infinity" is real-valued. -/
theorem realValued_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
        (cmpf .olt (Host.absf a) (broadcastInDim S ![] hb (constant (F := Ideal) Cert.Pre_finite_inputs.S_ .f32 0x7F800000#32)))
        (constantI Cert.Pre_finite_inputs.S_ 1 1#1) hr hu ix0 = 1#1) : RealValued a := by
  intro i
  have hi := Host.reduce_andi_all _ _ hr hu ix0 e i
  exact real_of_abs_lt_top (a i) hi

/-- The precondition (every entry of each of the four arrays has absolute value below plus infinity) makes the
    four arrays real-valued. -/
theorem real_of_pre (a0 a1 a2 : FVec Ideal Cert.Pre_finite_inputs.S1024x4x1024 .f32) (a3 : FVec Ideal Cert.Pre_finite_inputs.S1024x1024x64 .f32)
    (h : Cert.Pre_finite_inputs.fn (F := Ideal) a0 a1 a2 a3 = fun _ => 1#1) :
    RealValued a0 ∧ RealValued a1 ∧ RealValued a2 ∧ RealValued a3 := by
  have h0 := congrFun h ValueIdx.ix0
  obtain ⟨h012, h3⟩ := IntOp.andi_eq_one.1 h0
  obtain ⟨h01, h2⟩ := IntOp.andi_eq_one.1 h012
  obtain ⟨h0', h1⟩ := IntOp.andi_eq_one.1 h01
  exact ⟨realValued_of_all a0 _ _ _ h0', realValued_of_all a1 _ _ _ h1, realValued_of_all a2 _ _ _ h2,
    realValued_of_all a3 _ _ _ h3⟩

section Heads

variable (x : (⟨Cert.ReferenceIdeal.S1024x4x1024, .f32⟩ : BufTy).Contents (Elt Ideal))

/-- The unscaled query heads are a re-layout of the argument: each entry is an entry of the argument. -/
theorem v2_real (hx : RealValued x) : RealValued (Read.val_main_v2 (F := Ideal) x) := by
  intro i
  rw [Read.val_main_v2_apply, Read.val_main_v1_apply, Read.val_main_v0_apply]
  exact hx _

/-- The scaled query heads: an entry of the argument times a real constant. -/
theorem v4_real (hx : RealValued x) : RealValued (Read.val_main_v4 (F := Ideal) x) := by
  intro i
  obtain ⟨r, hr⟩ := v2_real x hx i
  refine ⟨r * (1 / 8), ?_⟩
  rw [Read.val_main_v4_apply, Read.val_main_v3_apply, Read.val_main_cst_apply, hr]
  simp only [Ideal.mulf_def, Ideal.ofBits_def]
  rw [Consts.ofBits_eighth, EReal.coe_mul]

/-- The key heads are a re-layout of the argument. -/
theorem v7_real (hx : RealValued x) : RealValued (Read.val_main_v7 (F := Ideal) x) := by
  intro i
  rw [Read.val_main_v7_apply, Read.val_main_v6_apply, Read.val_main_v5_apply]
  exact hx _

/-- The value heads are a re-layout of the argument. -/
theorem v10_real (hx : RealValued x) : RealValued (Read.val_main_v10 (F := Ideal) x) := by
  intro i
  rw [Read.val_main_v10_apply, Read.val_main_v9_apply, Read.val_main_v8_apply]
  exact hx _

end Heads

/-- Under the precondition the reference's three head arrays are real-valued. -/
theorem real_of_pre_heads (a0 a1 a2 : FVec Ideal Cert.Pre_finite_inputs.S1024x4x1024 .f32) (a3 : FVec Ideal Cert.Pre_finite_inputs.S1024x1024x64 .f32)
    (h : Cert.Pre_finite_inputs.fn (F := Ideal) a0 a1 a2 a3 = fun _ => 1#1) :
    RealValued (Read.val_main_v4 (F := Ideal) a0) ∧ RealValued (Read.val_main_v7 (F := Ideal) a1) ∧ RealValued (Read.val_main_v10 (F := Ideal) a2) := by
  obtain ⟨r0, r1, r2, _⟩ := real_of_pre a0 a1 a2 a3 h
  exact ⟨v4_real a0 r0, v7_real a1 r1, v10_real a2 r2⟩

end Cert.Attention.Ref

end
-- ==== Proof.lean ====
/-
  Attention computed a block of keys at a time equals softmax attention.

  The kernel forms, on the host, the scaled queries Q (each query entry times 1/8), the keys K and
  the values V re-laid as (pair, row, feature), and then, for each block of 128 query rows, walks
  over the 64 blocks of 16 key rows keeping three running quantities per (pair, query row): the
  largest score seen so far m, the normaliser l = sum of exp(score - m), and for each feature the
  weighted sum a = sum of exp(score - m) * value. A new block raises m to m', multiplies l and a by
  exp(m - m') and adds the block's terms; after the last block the output is a / l. The reference
  computes the scores of all 1024 keys at once, subtracts each row's maximum, exponentiates,
  divides by the row sum and multiplies by V. Both are the exp-weighted mean of the value rows,
      out(b,q,d) = (sum over k of exp(s(b,q,k)) * V(b,k,d)) / (sum over k of exp(s(b,q,k))),
  because a softmax does not change when a real number is subtracted from every score of a row:
  which real number either program subtracts never matters, only that it is finite. That is where
  the precondition enters: with finite inputs every score is a real number, every running maximum
  is a real number, the normaliser is a positive real, and rescaling and dividing sums of reals
  obey the usual laws (on the extended reals they fail at the infinities).

  The pieces: the specification (Spec), the float words (Consts), the scalar laws of the shifted
  softmax (LibSoftmaxShift) and of a row's running sums (LibOnlineRow); on the kernel's side what
  each run of the body leaves in its buffers (KernelPieces), the two matrix products and the block
  update read at an entry (KernelDots, KernelStep), the blocks as parts of the arrays
  (KernelBlocks), the induction over the grid (KernelRows), the whole result array and the host
  lines around the region (KernelArray); on the reference's side its result read at an entry and
  the finiteness the precondition gives (RefValue). The word-level kernel and the idealized kernel
  terminate without fault and leave their arguments unchanged by their generated frame runs, the
  reference by its generated run; the idealization rewrote nothing.
-/
import proofs.«137137_j50251117363623_2_alg».proof.Defs
import proofs.«137137_j50251117363623_2_alg».proof.Proof.Gen.Kernel
import proofs.«137137_j50251117363623_2_alg».proof.Proof.Gen.Kernel.Skeleton
import proofs.«137137_j50251117363623_2_alg».proof.Proof.Gen.Kernel.Launch
import proofs.«137137_j50251117363623_2_alg».proof.Proof.Gen.Kernel.Points
import proofs.«137137_j50251117363623_2_alg».proof.Proof.Gen.Kernel.Frame
import proofs.«137137_j50251117363623_2_alg».proof.Proof.Gen.KernelIdeal
import proofs.«137137_j50251117363623_2_alg».proof.Proof.Gen.KernelIdeal.Skeleton
import proofs.«137137_j50251117363623_2_alg».proof.Proof.Gen.KernelIdeal.Launch
import proofs.«137137_j50251117363623_2_alg».proof.Proof.Gen.KernelIdeal.Points
import proofs.«137137_j50251117363623_2_alg».proof.Proof.Gen.KernelIdeal.Frame
import proofs.«137137_j50251117363623_2_alg».proof.Proof.Gen.ReferenceIdeal
import proofs.«137137_j50251117363623_2_alg».proof.Proof.Gen.ReferenceIdeal.Run
import proofs.«137137_j50251117363623_2_alg».proof.Proof.Gen.ReferenceIdeal.Read
import proofs.«137137_j50251117363623_2_alg».proof.Proof.Gen.Pre_finite_inputs
import proofs.«137137_j50251117363623_2_alg».proof.Proof.KernelArray
import proofs.«137137_j50251117363623_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- With finite inputs the arrays the region finds have real entries: the mask is an input, and the
    scaled queries, keys and values are entries of inputs (times 1/8 for the queries). -/
theorem reals_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Arr.Reals m c := by
  obtain ⟨_, _, _, r3⟩ := Cert.Attention.Ref.real_of_pre _ _ _ _ (hpre c)
  obtain ⟨q, k, v⟩ := Cert.Attention.Ref.real_of_pre_heads _ _ _ _ (hpre c)
  unfold Cert.KernelIdeal.Arr.Reals
  rw [Cert.KernelIdeal.Arr.Qa_eq, Cert.KernelIdeal.Arr.Ka_eq, Cert.KernelIdeal.Arr.Va_eq, Cert.KernelIdeal.Arr.Ma_eq]
  exact ⟨q, k, v, r3⟩

/-- Both programs end with the same two host lines applied to the attention array of the same four arrays. -/
theorem algebraic : Cert.algebraic_KernelIdeal_ReferenceIdeal := by
  intro m ρ m' ρ' hpre hagree
  have hR : ∀ c, Cert.KernelIdeal.Arr.Reals m c := reals_of_pre m hpre
  refine ⟨fun c => Cert.KernelIdeal.Arr.tail c (Cert.KernelIdeal.Arr.Garr m c), Cert.KernelIdeal.Arr.run m ρ hR, ?_⟩
  refine (θ_run Cert.ReferenceIdeal.defs _ _).mono (fun _ h c => ⟨(h c).1.trans ?_, (h c).2⟩)
    (Cert.ReferenceIdeal.Value.run (F := Ideal) m' ρ')
  obtain ⟨hq, hk, hv, hm⟩ := hR c
  rw [Cert.KernelIdeal.Arr.Qa_eq] at hq
  rw [Cert.KernelIdeal.Arr.Ka_eq] at hk
  rw [Cert.KernelIdeal.Arr.Va_eq] at hv
  rw [Cert.KernelIdeal.Arr.Ma_eq] at hm
  have eG : Cert.KernelIdeal.Arr.Garr m c
      = Cert.Attention.G (Cert.ReferenceIdeal.Read.val_main_v4 (F := Ideal) (m ((c.tc : Thread Cert.KernelIdeal.nD Cert.KernelIdeal.τ).loc Cert.KernelIdeal.main_arg0)))
          (Cert.ReferenceIdeal.Read.val_main_v7 (F := Ideal) (m ((c.tc : Thread Cert.KernelIdeal.nD Cert.KernelIdeal.τ).loc Cert.KernelIdeal.main_arg1)))
          (Cert.ReferenceIdeal.Read.val_main_v10 (F := Ideal) (m ((c.tc : Thread Cert.KernelIdeal.nD Cert.KernelIdeal.τ).loc Cert.KernelIdeal.main_arg2)))
          (m ((c.tc : Thread Cert.KernelIdeal.nD Cert.KernelIdeal.τ).loc Cert.KernelIdeal.main_arg3)) := by
    unfold Cert.KernelIdeal.Arr.Garr
    rw [Cert.KernelIdeal.Arr.Qa_eq, Cert.KernelIdeal.Arr.Ka_eq, Cert.KernelIdeal.Arr.Va_eq, Cert.KernelIdeal.Arr.Ma_eq]
  rw [Cert.Attention.Ref.ref_result, (hagree c).1, (hagree c).2.1, (hagree c).2.2.1, (hagree c).2.2.2,
    Cert.Attention.Ref.ref_core _ _ _ _ hq hk hv hm]
  show _ = Cert.KernelIdeal.Arr.tail c (Cert.KernelIdeal.Arr.Garr m c)
  rw [eG]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
